-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S1024x64 .f32 .bf16
  ∧ IdealRules.truncf_extf.Statement Cert.KernelIdeal.S1024x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S20000x64 : Shape := ⟨2, ![20000, 64]⟩
abbrev S1024x64 : Shape := ⟨2, ![1024, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S20000x64 : S_.BroadcastsInDim S20000x64 (![] : Fin 0 → Fin S20000x64.rank)
  reducesTo_S20000x64_S_d0_1 : S20000x64.ReducesTo [0, 1] S_
  bcast_S_S1024x64 : S_.BroadcastsInDim S1024x64 (![] : Fin 0 → Fin S1024x64.rank)
  reducesTo_S1024x64_S_d0_1 : S1024x64.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg1 : IVec S4096 32) (main_v13 : IVec S_ 1) (main_v15 : IVec S4096 1) (main_c_5 : IVec S_ 32) : IVec S_ 1 :=
  let main_v16 : IVec S4096 32 := broadcastInDim S4096 ![] bcast_S_S4096 main_c_5
  let main_v17 : IVec S4096 1 := cmpi .slt main_arg1 main_v16
  let main_v18 : IVec S4096 1 := andi main_v15 main_v17
  let main_c_6 : IVec S_ 1 := constantI S_ 1 1#1
  let main_v19 : IVec S_ 1 := (fun x v => Host.reduce IntOp.andi x v reducesTo_S4096_S_d0 h_S_) main_v18 main_c_6
  let main_v20 : IVec S_ 1 := andi main_v13 main_v19
  main_v20

def fn {F : FTy → Type} [FloatOps F] (main_arg0 : FVec F S4096x1024 .f32) (main_arg1 : IVec S4096 32) (main_arg2 : FVec F S20000x64 .f32) (main_arg3 : FVec F S1024x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S20000x64 .f32 := Host.absf main_arg2
  let main_cst_0 : FVec F S_ .f32 := constant S_ .f32 0x7F800000#32
  let main_v5 : FVec F S20000x64 .f32 := broadcastInDim S20000x64 ![] bcast_S_S20000x64 main_cst_0
  let main_v6 : IVec S20000x64 1 := cmpf .olt main_v4 main_v5
  let main_c_1 : IVec S_ 1 := constantI S_ 1 1#1
  let main_v7 : IVec S_ 1 := (fun x v => Host.reduce IntOp.andi x v reducesTo_S20000x64_S_d0_1 h_S_) main_v6 main_c_1
  let main_v8 : IVec S_ 1 := andi main_v3 main_v7
  let main_v9 : FVec F S1024x64 .f32 := Host.absf main_arg3
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg1 main_v14
  let main_c_5 : IVec S_ 32 := constantI S_ 32 20000#32
  fn_part1 (F := F) main_arg1 main_v13 main_v15 main_c_5
-- ==== Kernel.lean ====
abbrev S4096x1024 : Shape := ⟨2, ![4096, 1024]⟩
abbrev S4096 : Shape := ⟨1, ![4096]⟩
abbrev S20000x64 : Shape := ⟨2, ![20000, 64]⟩
abbrev S1024x64 : Shape := ⟨2, ![1024, 64]⟩
abbrev S_ : Shape := ⟨0, ![]⟩
abbrev S20480x64 : Shape := ⟨2, ![20480, 64]⟩
abbrev S64x20480 : Shape := ⟨2, ![64, 20480]⟩
abbrev S4096x1 : Shape := ⟨2, ![4096, 1]⟩
abbrev S1 : Shape := ⟨1, ![1]⟩
abbrev S1x1 : Shape := ⟨2, ![1, 1]⟩
abbrev S4096x64 : Shape := ⟨2, ![4096, 64]⟩
abbrev S1024x1024 : Shape := ⟨2, ![1024, 1024]⟩
abbrev S64x2048 : Shape := ⟨2, ![64, 2048]⟩
abbrev S1024x1 : Shape := ⟨2, ![1024, 1]⟩
abbrev S1024 : Shape := ⟨1, ![1024]⟩
abbrev S1024x2048 : Shape := ⟨2, ![1024, 2048]⟩

abbrev nBuf : Space → Nat
  | .hbm => 39
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S20000x64, .f32⟩
  | .hbm, ⟨3, _⟩ => ⟨S1024x64, .f32⟩
  | .hbm, ⟨4, _⟩ => ⟨S_, .i32⟩
  | .hbm, ⟨5, _⟩ => ⟨S_, .f32⟩
  | .hbm, ⟨6, _⟩ => ⟨S20480x64, .f32⟩
  | .hbm, ⟨7, _⟩ => ⟨S64x20480, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S1, .i32⟩
  | .hbm, ⟨17, _⟩ => ⟨S_, .i32⟩
  | .hbm, ⟨18, _⟩ => ⟨S4096x1, .i32⟩
  | .hbm, ⟨19, _⟩ => ⟨S4096x1, .i1⟩
  | .hbm, ⟨20, _⟩ => ⟨S1x1, .i32⟩
  | .hbm, ⟨21, _⟩ => ⟨S4096x1, .i32⟩
  | .hbm, ⟨22, _⟩ => ⟨S4096x1, .i1⟩
  | .hbm, ⟨23, _⟩ => ⟨S4096x1, .i1⟩
  | .hbm, ⟨24, _⟩ => ⟨S_, .i1⟩
  | .hbm, ⟨25, _⟩ => ⟨S4096, .i1⟩
  | .hbm, ⟨26, _⟩ => ⟨S4096x64, .f32⟩
  | .hbm, ⟨27, _⟩ => ⟨S4096x64, .i1⟩
  | .hbm, ⟨28, _⟩ => ⟨S_, .f32⟩
  | .hbm, ⟨29, _⟩ => ⟨S4096x64, .f32⟩
  | .hbm, ⟨30, _⟩ => ⟨S4096x64, .f32⟩
  | .hbm, ⟨31, _⟩ => ⟨S4096x1, .i32⟩
  | .hbm, ⟨32, _⟩ => ⟨S4096x1, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S64x2048, .f32⟩
  | .local _ .vmem, ⟨6, _⟩ => ⟨S64x2048, .f32⟩
  | .local _ .vmem, ⟨7, _⟩ => ⟨S1024x1, .i32⟩
  | .local _ .vmem, ⟨8, _⟩ => ⟨S1024x1, .i32⟩
  | .local _ .vmem, ⟨9, _⟩ => ⟨S1024x1, .f32⟩
  | .local _ .vmem, ⟨10, _⟩ => ⟨S1024x1, .f32⟩
  | .local _ .vmem, ⟨11, _⟩ => ⟨S1024x64, .bf16⟩
  | .local _ .vmem, ⟨12, _⟩ => ⟨S1024x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_call1_c : Ref sig .tc := ⟨.hbm, 8, rfl⟩
abbrev main_call1_v0 : Ref sig .tc := ⟨.hbm, 9, rfl⟩
abbrev main_call1_v1 : Ref sig .tc := ⟨.hbm, 10, rfl⟩
abbrev main_call1_c_0 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_c_1 : Ref sig .tc := ⟨.hbm, 16, rfl⟩
abbrev main_call1_c_2 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_3 : Ref sig .tc := ⟨.hbm, 24, rfl⟩
abbrev main_call1_v12 : Ref sig .tc := ⟨.hbm, 25, rfl⟩
abbrev main_call1_v13 : Ref sig .tc := ⟨.hbm, 26, rfl⟩
abbrev main_call1_v14 : Ref sig .tc := ⟨.hbm, 27, rfl⟩
abbrev main_call1_cst : Ref sig .tc := ⟨.hbm, 28, rfl⟩
abbrev main_call1_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_cst_0 : Ref sig .tc := ⟨.hbm, 36, rfl⟩
abbrev main_v7 : Ref sig .tc := ⟨.hbm, 37, rfl⟩
abbrev main_v8 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c9_i32 : BitVec 32 := 9#32
  let v21 : BitVec 1 := Scalar.cmpi .eq arg1 c9_i32
  let v22 : BitVec 32 := Scalar.extui v21
  let c0_i32_9 : BitVec 32 := 0#32
  let v23 : BitVec 1 := Scalar.cmpi .ne v22 c0_i32_9
  v23

def k0_cond3 (i : grid0.Coords) : BitVec 1 :=
  let arg1 : BitVec 32 := BitVec.ofNat 32 (i 1).val
  let c9_i32_10 : BitVec 32 := 9#32
  let v24 : BitVec 1 := Scalar.cmpi .ne arg1 c9_i32_10
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  pads_S20000x64_S20480x64_04800_000 : S20000x64.Pads (![0, 0] : Fin 2 → Nat) ![480, 0] ![0, 0] S20480x64
  h_S_ : 0 < S_.numel
  transposes_S20480x64_S64x20480_1_0 : S20480x64.Transposes [1, 0] S64x20480
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x64_0 : S4096.BroadcastsInDim S4096x64 (![0] : Fin 1 → Fin S4096x64.rank)
  bcast_S_S4096x64 : S_.BroadcastsInDim S4096x64 (![] : Fin 0 → Fin S4096x64.rank)
  shapeCasts_S4096_S4096x1 : S4096.ShapeCasts S4096x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  reduces_S1024x64_S1024 : S1024x64.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  broadcasts_S1024x1_S1024x2048 : S1024x1.Broadcasts S1024x2048
  iota_S1024x2048_d1_w32 : S1024x2048.Iotas .tc 32 [1]
  reduces_S1024x2048_S1024 : S1024x2048.Reduces [1] S1024
  shapeCasts_S4096x1_S4096 : S4096x1.ShapeCasts S4096
  reducesTo_S4096_S_d0 : S4096.ReducesTo [0] S_
  shapeCasts_S_S1 : S_.ShapeCasts S1
  gather_S20000x64_S4096x1_S4096x64_1_0_n_n_0_1_164_wf : GatherDims.WF S20000x64 S4096x1 S4096x64 [1] [0] [] [0] [] 1 ![1, 64]
  dot_S1024x1024_S1024x64_S1024x64_1_0_0_1_n_n_wf : DotDims.WF S1024x1024 S1024x64 S1024x64 [1] [0] [0] [1] [] []
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S4096x64.size a
  hwx0_2 : ∀ i : grid0.Coords, EltTy.bits .f32 = 32 ∨ (Rect.block (s := S4096x64) S1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x20480.size a
  hwx0_3 : ∀ i : grid0.Coords, EltTy.bits .f32 = 32 ∨ (Rect.block (s := S64x20480) S64x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .i32 = 32 ∨ (Rect.block (s := S4096x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def gather_S20000x64_S4096x1_S4096x64_1_0_n_n_0_1_164 : GatherDims S20000x64 S4096x1 S4096x64 where
  offsetDims := [1]
  collapsedSliceDims := [0]
  operandBatchingDims := []
  startIndicesBatchingDims := []
  startIndexMap := [0]
  indexVectorDim := 1
  sliceSizes := ![1, 64]
  wf := gather_S20000x64_S4096x1_S4096x64_1_0_n_n_0_1_164_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond1 i == 1#1) && !(k0_cond2 i == 1#1) && !(k0_cond3 i == 1#1) | ⟨_ + 6, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S20000x64 : Shape := ⟨2, ![20000, 64]⟩
abbrev S1024x64 : Shape := ⟨2, ![1024, 64]⟩
abbrev S4096x64 : Shape := ⟨2, ![4096, 64]⟩
abbrev S64x20000 : Shape := ⟨2, ![64, 20000]⟩
abbrev S4096x20000 : Shape := ⟨2, ![4096, 20000]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S20000 : Shape := ⟨1, ![20000]⟩
abbrev S1x20000 : Shape := ⟨2, ![1, 20000]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S20000x64, .f32⟩
  | .hbm, ⟨3, _⟩ => ⟨S1024x64, .f32⟩
  | .hbm, ⟨4, _⟩ => ⟨S4096x64, .f32⟩
  | .hbm, ⟨5, _⟩ => ⟨S64x20000, .f32⟩
  | .hbm, ⟨6, _⟩ => ⟨S4096x20000, .f32⟩
  | .hbm, ⟨7, _⟩ => ⟨S4096x1, .i32⟩
  | .hbm, ⟨8, _⟩ => ⟨S_, .i32⟩
  | .hbm, ⟨9, _⟩ => ⟨S4096x1, .i32⟩
  | .hbm, ⟨10, _⟩ => ⟨S4096x1, .i1⟩
  | .hbm, ⟨11, _⟩ => ⟨S_, .i32⟩
  | .hbm, ⟨12, _⟩ => ⟨S4096x1, .i32⟩
  | .hbm, ⟨13, _⟩ => ⟨S4096x1, .i32⟩
  | .hbm, ⟨14, _⟩ => ⟨S4096x1, .i32⟩
  | .hbm, ⟨15, _⟩ => ⟨S4096x1x1, .i32⟩
  | .hbm, ⟨16, _⟩ => ⟨S1, .i32⟩
  | .hbm, ⟨17, _⟩ => ⟨S_, .i32⟩
  | .hbm, ⟨18, _⟩ => ⟨S4096x1x1, .i32⟩
  | .hbm, ⟨19, _⟩ => ⟨S4096x1x1, .i1⟩
  | .hbm, ⟨20, _⟩ => ⟨S1x1x1, .i32⟩
  | .hbm, ⟨21, _⟩ => ⟨S4096x1x1, .i32⟩
  | .hbm, ⟨22, _⟩ => ⟨S4096x1x1, .i1⟩
  | .hbm, ⟨23, _⟩ => ⟨S4096x1x1, .i1⟩
  | .hbm, ⟨24, _⟩ => ⟨S_, .i1⟩
  | .hbm, ⟨25, _⟩ => ⟨S4096x1, .i1⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x20000, .f32⟩
  | .hbm, ⟨32, _⟩ => ⟨S4096x20000, .f32⟩
  | .hbm, ⟨33, _⟩ => ⟨S4096x20000, .f32⟩
  | .hbm, ⟨34, _⟩ => ⟨S4096x20000, .f32⟩
  | .hbm, ⟨35, _⟩ => ⟨S_, .f32⟩
  | .hbm, ⟨36, _⟩ => ⟨S4096x20000, .f32⟩
  | .hbm, ⟨37, _⟩ => ⟨S4096x20000, .f32⟩
  | .hbm, ⟨38, _⟩ => ⟨S20000, .i32⟩
  | .hbm, ⟨39, _⟩ => ⟨S1x20000, .i32⟩
  | .hbm, ⟨40, _⟩ => ⟨S4096x1, .i32⟩
  | .hbm, ⟨41, _⟩ => ⟨S4096x20000, .i32⟩
  | .hbm, ⟨42, _⟩ => ⟨S4096x20000, .i32⟩
  | .hbm, ⟨43, _⟩ => ⟨S4096x20000, .i1⟩
  | .hbm, ⟨44, _⟩ => ⟨S_, .f32⟩
  | .hbm, ⟨45, _⟩ => ⟨S_, .f32⟩
  | .hbm, ⟨46, _⟩ => ⟨S4096x20000, .f32⟩
  | .hbm, ⟨47, _⟩ => ⟨S4096x20000, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_cst : Ref sig .tc := ⟨.hbm, 27, rfl⟩
abbrev main_call0_v14 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_call1_cst : Ref sig .tc := ⟨.hbm, 35, rfl⟩
abbrev main_call1_v0 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_0 : Ref sig .tc := ⟨.hbm, 44, rfl⟩
abbrev main_call2_v0 : Ref sig .tc := ⟨.hbm, 45, rfl⟩
abbrev main_call2_v1 : Ref sig .tc := ⟨.hbm, 46, rfl⟩
abbrev main_v16 : Ref sig .tc := ⟨.hbm, 47, rfl⟩
abbrev main_cst_1 : Ref sig .tc := ⟨.hbm, 48, rfl⟩
abbrev main_v17 : Ref sig .tc := ⟨.hbm, 49, rfl⟩
abbrev main_cst_2 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩

abbrev nD : Nat := 1
abbrev τ : Topo := Topo.v7x

variable {F : FTy → Type} [FloatOps F]

class Facts₀ : Prop where
  transposes_S20000x64_S64x20000_1_0 : S20000x64.Transposes [1, 0] S64x20000
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  bcast_S_S4096x20000 : S_.BroadcastsInDim S4096x20000 (![] : Fin 0 → Fin S4096x20000.rank)
  bcast_S4096x1_S4096x20000_0_1 : S4096x1.BroadcastsInDim S4096x20000 (![0, 1] : Fin 2 → Fin S4096x20000.rank)
  bcast_S20000_S1x20000_1 : S20000.BroadcastsInDim S1x20000 (![1] : Fin 1 → Fin S1x20000.rank)
  bcast_S1x20000_S4096x20000_0_1 : S1x20000.BroadcastsInDim S4096x20000 (![0, 1] : Fin 2 → Fin S4096x20000.rank)
  reducesTo_S4096x20000_S4096_d1 : S4096x20000.ReducesTo [1] S4096
  reducesTo_S4096_S_d0 : S4096.ReducesTo [0] S_
  shapeCasts_S_S1 : S_.ShapeCasts S1
  dot_S4096x1024_S1024x64_S4096x64_1_0_0_1_n_n_wf : DotDims.WF S4096x1024 S1024x64 S4096x64 [1] [0] [0] [1] [] []
  dot_S4096x64_S64x20000_S4096x20000_1_0_0_1_n_n_wf : DotDims.WF S4096x64 S64x20000 S4096x20000 [1] [0] [0] [1] [] []
  gather_S4096x20000_S4096x1x1_S4096x1_n_1_0_0_1_2_11_wf : GatherDims.WF S4096x20000 S4096x1x1 S4096x1 [] [1] [0] [1] [0] 2 ![1, 1]

variable [Facts₀]

def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x20000_S4096x20000_1_0_0_1_n_n : DotDims S4096x64 S64x20000 S4096x20000 where
  lhsContracting := [1]
  rhsContracting := [0]
  lhsNonContracting := [0]
  rhsNonContracting := [1]
  lhsBatch := []
  rhsBatch := []
  wf := dot_S4096x64_S64x20000_S4096x20000_1_0_0_1_n_n_wf
def gather_S4096x20000_S4096x1x1_S4096x1_n_1_0_0_1_2_11 : GatherDims S4096x20000 S4096x1x1 S4096x1 where
  offsetDims := []
  collapsedSliceDims := [1]
  operandBatchingDims := [0]
  startIndicesBatchingDims := [0]
  startIndexMap := [1]
  indexVectorDim := 2
  sliceSizes := ![1, 1]
  wf := gather_S4096x20000_S4096x1x1_S4096x1_n_1_0_0_1_2_11_wf

class Facts : Prop extends Facts₀ where

variable [Facts]
-- ==== Proof.Kernel.FrameFacts.lean ====
/-
  The three branch conditions of the body decided over the 4 x 10 grid (the class tile is the inner coordinate:
  the first holds at tile 0, the second at tile 9, the third away from tile 9), that the output window is never
  idle, the staging memrefs the body is called with at a point, and the invariant's scratch buffers by name.
-/
import proofs.«168488_j18743237280105_2_alg».proof.Proof.Gen.Kernel.Frame
import proofs.«168488_j18743237280105_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

theorem hcond1 : ∀ t : Fin cfg0.N, k0_cond1 (grid0.coords t) = 1#1 ↔ t.val % 10 = 0 :=
  (by decide +kernel : ∀ t : Fin grid0.N, k0_cond1 (grid0.coords t) = 1#1 ↔ t.val % 10 = 0)
theorem hcond2 : ∀ t : Fin cfg0.N, k0_cond2 (grid0.coords t) = 1#1 ↔ t.val % 10 = 9 :=
  (by decide +kernel : ∀ t : Fin grid0.N, k0_cond2 (grid0.coords t) = 1#1 ↔ t.val % 10 = 9)
theorem hcond3 : ∀ t : Fin cfg0.N, k0_cond3 (grid0.coords t) = 1#1 ↔ ¬ t.val % 10 = 9 :=
  (by decide +kernel : ∀ t : Fin grid0.N, k0_cond3 (grid0.coords t) = 1#1 ↔ ¬ t.val % 10 = 9)

/-! ## No window is idle anywhere -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is live at every coordinate: the second or the third condition holds (tile 9 or not). -/
theorem live5_all : ∀ i : grid0.Coords, cfg0.idle 5 i = false := by decide +kernel

/-! ## The memrefs the body is called with -/

abbrev VO5 : View sig .tc .vmem S1024x1 .f32 := (Memref.whole cc0_stg5_0 : Memref sig .tc .vmem S1024x1 .f32).view
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The two scratch operands: the projected rows and the per-row threshold, kept from tile 0 to tile 9. -/
abbrev scP : Memref sig .tc .vmem S1024x64 .bf16 := Memref.whole cc0_scratch0
abbrev scT : Memref sig .tc .vmem S1024x1 .f32 := Memref.whole cc0_scratch1
abbrev VP : View sig .tc .vmem S1024x64 .bf16 := (scP).view
abbrev VT : View sig .tc .vmem S1024x1 .f32 := (scT).view

/-- The region's invariant names the two scratch buffers, each owned whole at some contents, and the generator register. -/
theorem PhiA_eq (c : Dev nD) :
    (Pipeline.ΦA spec0 c : sProp 𝕄)
      = iprop(iprop((∃ d, owns (c : Thread nD τ) scP fullShare d) ∗ (∃ d, owns (c : Thread nD τ) scT fullShare d)) ∗ (∃ r, prngReg c r)) := by
  unfold Pipeline.ΦA; rw [scopedRest0_eq]; simp only [scP, scT, owns_whole]; try rfl

end Cert.Kernel.Hand

end
-- ==== Proof.Kernel.RunA.lean ====
/-
  The body at a first-tile point (the first condition holds, the second fails, the third holds), run once on any
  whole memrefs: the five input buffers at given contents are handed back as they were; the output buffer and the
  two scratch buffers, found at anything, end with the stores' pieces written — the scratch with the projected rows
  and the threshold, the output with the zero column and then the first tile's masked hinge sums added to it.
-/
import proofs.«168488_j18743237280105_2_alg».proof.Proof.Kernel.FrameFacts

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first-tile case leaves in the output buffer and in the two scratch buffers, with the body's triple. -/
noncomputable def kernelRunA (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) :
    Σ' (L5 : List (View.Piece (Elt F) S1024x1 .f32)), Σ' (LS0 : List (View.Piece (Elt F) S1024x64 .bf16)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Hand

end
-- ==== Proof.Kernel.RunB.lean ====
/-
  The body at a middle-tile point (the first and second conditions fail, the third holds): the inputs and the two scratch buffers at given contents are handed back as they were; the output buffer, found at what the tile before left, ends with this tile's masked hinge sums added to it.
-/
import proofs.«168488_j18743237280105_2_alg».proof.Proof.Kernel.RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces this case leaves in the output buffer, with the body's triple. -/
noncomputable def kernelRunB (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : ¬ k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) :
    { L5 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ owns (c : Thread nD τ) arg9 fullShare xs1) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; isplitr; · ipureintro; exact harg9.read_unread _
    iexact HS1

end Cert.Kernel.Hand

end
-- ==== Proof.Kernel.RunC.lean ====
/-
  The body at a last-tile point (the first condition fails, the second holds, the third fails): as at a middle tile, with the padded columns masked as well.
-/
import proofs.«168488_j18743237280105_2_alg».proof.Proof.Kernel.RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces this case leaves in the output buffer, with the body's triple. -/
noncomputable def kernelRunC (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : ¬ k0_cond1 i = 1#1) (hc2 : k0_cond2 i = 1#1) (hc3 : ¬ k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) :
    { L5 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ owns (c : Thread nD τ) arg9 fullShare xs1) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; isplitr; · ipureintro; exact harg9.read_unread _
    iexact HS1

end Cert.Kernel.Hand

end
-- ==== Proof.Kernel.Frame.lean ====
/-
  The region's frame by hand, as for a kernel whose output and scratch are carried from grid point to grid point:
  what each case of the body leaves in the output buffer and in the two scratch buffers (the stores' pieces read
  back), what they hold after every point by recursion on the point (`outsAt`: a first tile starts afresh, a
  middle or last tile adds to what the tile before left and keeps the scratch), the pipeline's proof data over
  it, the body obligation case by case, and the run of the whole program with every array named.
-/
import proofs.«168488_j18743237280105_2_alg».proof.Proof.Kernel.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Outs (F : FTy → Type) [FloatOps F] : Type := Vec F S1024x1 .f32 × Vec F S1024x64 .bf16 × Vec F S1024x1 .f32

/-! ## What each case leaves -/

def outA (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) : Vec F S1024x1 .f32 :=
  VO5.read (Elt F) (VO5.writes (Elt F) VO5.junk (kernelRunA c i arg2 harg2 arg3 harg3 arg4 harg4 arg5 harg5 arg6 harg6 arg7 harg7 arg8 harg8 arg9 harg9 hc1 hc2 hc3 x0 x1 x2 x3 x4).1)
def soutA0 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) : Vec F S1024x64 .bf16 :=
  VP.read (Elt F) (VP.writes (Elt F) VP.junk (kernelRunA c i arg2 harg2 arg3 harg3 arg4 harg4 arg5 harg5 arg6 harg6 arg7 harg7 arg8 harg8 arg9 harg9 hc1 hc2 hc3 x0 x1 x2 x3 x4).2.1)
def soutA1 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) : Vec F S1024x1 .f32 :=
  VT.read (Elt F) (VT.writes (Elt F) VT.junk (kernelRunA c i arg2 harg2 arg3 harg3 arg4 harg4 arg5 harg5 arg6 harg6 arg7 harg7 arg8 harg8 arg9 harg9 hc1 hc2 hc3 x0 x1 x2 x3 x4).2.2.1)
theorem coverA5 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (y : S1024x1.Idx) :
    ∃ pc ∈ (kernelRunA c i arg2 harg2 arg3 harg3 arg4 harg4 arg5 harg5 arg6 harg6 arg7 harg7 arg8 harg8 arg9 harg9 hc1 hc2 hc3 x0 x1 x2 x3 x4).1, y ∈ pc.1.set :=
  View.cover_of_tiledL (kernelRunA c i arg2 harg2 arg3 harg3 arg4 harg4 arg5 harg5 arg6 harg6 arg7 harg7 arg8 harg8 arg9 harg9 hc1 hc2 hc3 x0 x1 x2 x3 x4).1 S1024x1.size (by sl_kernel_rfl) y
theorem scoverA0 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (y : S1024x64.Idx) :
    ∃ pc ∈ (kernelRunA c i arg2 harg2 arg3 harg3 arg4 harg4 arg5 harg5 arg6 harg6 arg7 harg7 arg8 harg8 arg9 harg9 hc1 hc2 hc3 x0 x1 x2 x3 x4).2.1, y ∈ pc.1.set :=
  View.cover_of_tiledL (kernelRunA c i arg2 harg2 arg3 harg3 arg4 harg4 arg5 harg5 arg6 harg6 arg7 harg7 arg8 harg8 arg9 harg9 hc1 hc2 hc3 x0 x1 x2 x3 x4).2.1 S1024x64.size (by sl_kernel_rfl) y
theorem scoverA1 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (y : S1024x1.Idx) :
    ∃ pc ∈ (kernelRunA c i arg2 harg2 arg3 harg3 arg4 harg4 arg5 harg5 arg6 harg6 arg7 harg7 arg8 harg8 arg9 harg9 hc1 hc2 hc3 x0 x1 x2 x3 x4).2.2.1, y ∈ pc.1.set :=
  View.cover_of_tiledL (kernelRunA c i arg2 harg2 arg3 harg3 arg4 harg4 arg5 harg5 arg6 harg6 arg7 harg7 arg8 harg8 arg9 harg9 hc1 hc2 hc3 x0 x1 x2 x3 x4).2.2.1 S1024x1.size (by sl_kernel_rfl) y

def outB (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : ¬ k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) : Vec F S1024x1 .f32 :=
  VO5.read (Elt F) (VO5.writes (Elt F) VO5.junk (kernelRunB c i arg2 harg2 arg3 harg3 arg4 harg4 arg5 harg5 arg6 harg6 arg7 harg7 arg8 harg8 arg9 harg9 hc1 hc2 hc3 x0 x1 x2 x3 x4 xo5 xs0 xs1).1)
theorem coverB5 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : ¬ k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) (y : S1024x1.Idx) :
    ∃ pc ∈ (kernelRunB c i arg2 harg2 arg3 harg3 arg4 harg4 arg5 harg5 arg6 harg6 arg7 harg7 arg8 harg8 arg9 harg9 hc1 hc2 hc3 x0 x1 x2 x3 x4 xo5 xs0 xs1).1, y ∈ pc.1.set :=
  View.cover_of_tiledL (kernelRunB c i arg2 harg2 arg3 harg3 arg4 harg4 arg5 harg5 arg6 harg6 arg7 harg7 arg8 harg8 arg9 harg9 hc1 hc2 hc3 x0 x1 x2 x3 x4 xo5 xs0 xs1).1 S1024x1.size (by sl_kernel_rfl) y
def outC (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : ¬ k0_cond1 i = 1#1) (hc2 : k0_cond2 i = 1#1) (hc3 : ¬ k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) : Vec F S1024x1 .f32 :=
  VO5.read (Elt F) (VO5.writes (Elt F) VO5.junk (kernelRunC c i arg2 harg2 arg3 harg3 arg4 harg4 arg5 harg5 arg6 harg6 arg7 harg7 arg8 harg8 arg9 harg9 hc1 hc2 hc3 x0 x1 x2 x3 x4 xo5 xs0 xs1).1)
theorem coverC5 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : ¬ k0_cond1 i = 1#1) (hc2 : k0_cond2 i = 1#1) (hc3 : ¬ k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) (y : S1024x1.Idx) :
    ∃ pc ∈ (kernelRunC c i arg2 harg2 arg3 harg3 arg4 harg4 arg5 harg5 arg6 harg6 arg7 harg7 arg8 harg8 arg9 harg9 hc1 hc2 hc3 x0 x1 x2 x3 x4 xo5 xs0 xs1).1, y ∈ pc.1.set :=
  View.cover_of_tiledL (kernelRunC c i arg2 harg2 arg3 harg3 arg4 harg4 arg5 harg5 arg6 harg6 arg7 harg7 arg8 harg8 arg9 harg9 hc1 hc2 hc3 x0 x1 x2 x3 x4 xo5 xs0 xs1).1 S1024x1.size (by sl_kernel_rfl) y

/-! ## Which case a point is in -/

theorem condsA (t : Fin cfg0.N) (h0 : t.val % 10 = 0) :
    k0_cond1 (grid0.coords t) = 1#1 ∧ ¬ k0_cond2 (grid0.coords t) = 1#1 ∧ k0_cond3 (grid0.coords t) = 1#1 :=
  ⟨(hcond1 t).mpr h0, fun h => by have := (hcond2 t).mp h; omega, (hcond3 t).mpr (by omega)⟩
theorem condsB (t : Fin cfg0.N) (h0 : ¬ t.val % 10 = 0) (h9 : ¬ t.val % 10 = 9) :
    ¬ k0_cond1 (grid0.coords t) = 1#1 ∧ ¬ k0_cond2 (grid0.coords t) = 1#1 ∧ k0_cond3 (grid0.coords t) = 1#1 :=
  ⟨fun h => h0 ((hcond1 t).mp h), fun h => h9 ((hcond2 t).mp h), (hcond3 t).mpr h9⟩
theorem condsC (t : Fin cfg0.N) (h9 : t.val % 10 = 9) :
    ¬ k0_cond1 (grid0.coords t) = 1#1 ∧ k0_cond2 (grid0.coords t) = 1#1 ∧ ¬ k0_cond3 (grid0.coords t) = 1#1 :=
  ⟨fun h => by have := (hcond1 t).mp h; omega, (hcond2 t).mpr h9, fun h => (hcond3 t).mp h h9⟩

/-! ## What the output buffer and the scratch hold after each point -/

def stepA (c : Dev nD) (t : Fin cfg0.N) (h0 : t.val % 10 = 0) : Outs F :=
  (outA c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t),
   soutA0 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t),
   soutA1 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
def stepB (c : Dev nD) (t : Fin cfg0.N) (h0 : ¬ t.val % 10 = 0) (h9 : ¬ t.val % 10 = 9) (prev : Outs F) : Outs F :=
  (outB c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsB t h0 h9).1 (condsB t h0 h9).2.1 (condsB t h0 h9).2.2 (iblk m c 0 t) (iblk m c 1 t) (iblk m c 2 t) (iblk m c 3 t) (iblk m c 4 t) prev.1 prev.2.1 prev.2.2, prev.2.1, prev.2.2)
def stepC (c : Dev nD) (t : Fin cfg0.N) (h9 : t.val % 10 = 9) (prev : Outs F) : Outs F :=
  (outC c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsC t h9).1 (condsC t h9).2.1 (condsC t h9).2.2 (iblk m c 0 t) (iblk m c 1 t) (iblk m c 2 t) (iblk m c 3 t) (iblk m c 4 t) prev.1 prev.2.1 prev.2.2, prev.2.1, prev.2.2)

/-- After position `n`: a first tile starts afresh; a later tile works on what the tile before left. -/
def outsAt (c : Dev nD) : (n : ℕ) → n < cfg0.N → Outs F
  | 0, hn => stepA m c ⟨0, hn⟩ (Nat.zero_mod _)
  | n + 1, hn =>
    if h0 : (n + 1) % 10 = 0 then stepA m c ⟨n + 1, hn⟩ h0
    else if h9 : (n + 1) % 10 = 9 then stepC m c ⟨n + 1, hn⟩ h9 (outsAt c n (Nat.lt_of_succ_lt hn))
    else stepB m c ⟨n + 1, hn⟩ h0 h9 (outsAt c n (Nat.lt_of_succ_lt hn))

theorem outsAt_A (c : Dev nD) (t : Fin cfg0.N) (h0 : t.val % 10 = 0) : outsAt m c t.val t.isLt = stepA m c t h0 := by
  obtain ⟨n, hn⟩ := t
  cases n with
  | zero => rfl
  | succ n => exact dif_pos h0
theorem outsAt_B (c : Dev nD) (t : Fin cfg0.N) (h0 : ¬ t.val % 10 = 0) (h9 : ¬ t.val % 10 = 9) :
    outsAt m c t.val t.isLt = stepB m c t h0 h9 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h9)
theorem outsAt_C (c : Dev nD) (t : Fin cfg0.N) (h9 : t.val % 10 = 9) :
    outsAt m c t.val t.isLt = stepC m c t h9 (outsAt m c (t.val - 1) (Nat.lt_of_le_of_lt (Nat.sub_le _ _) t.isLt)) := by
  obtain ⟨n, hn⟩ := t
  cases n with
  | zero => exact absurd (show 0 % 10 = 9 from h9) (by decide)
  | succ n =>
    have h9' : (n + 1) % 10 = 9 := h9
    exact (dif_neg (by omega)).trans (dif_pos h9')

/-- The invariant before position `n`: at first the scratch at anything; afterwards at what the point before left. -/
def PhiS (c : Dev nD) : (n : ℕ) → n ≤ cfg0.N → sProp 𝕄
  | 0, _ => Pipeline.ΦA spec0 c
  | n + 1, hn => iprop(iprop(owns (c : Thread nD τ) scP fullShare ((outsAt m c n hn).2.1) ∗ owns (c : Thread nD τ) scT fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scP fullShare ((outsAt m c n hn).2.1) ∗ owns (c : Thread nD τ) scT fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scP fullShare ((outsAt m c (n - 1) (by omega)).2.1) ∗ owns (c : Thread nD τ) scT fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- Away from a first tile the output buffer holds what the tile before left: it was not written back in between. -/
theorem before5 (c : Dev nD) (t : Fin cfg0.N) (h0 : ¬ t.val % 10 = 0) (d) :
    (dats m 0 c).before 5 t d = (outsAt m c (t.val - 1) (Nat.lt_of_le_of_lt (Nat.sub_le _ _) t.isLt)).1 := by
  rw [Dat.before_out_kept _ 5 rfl t (fun h => h0 (by rw [h])) (Bool.eq_false_iff.mpr fun h => by have := (flush0_5 _).mp h; dsimp only at this; omega)
    live5_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h0 : t.val % 10 = 0
  · rw [outsAt_A m c t h0]
    unfold stepA outA soutA0 soutA1; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRunA c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
          · unfold owns; iexists _; isplitr
            swap; · iexact HS1
            ipureintro; exact View.read_writes_of_cover _ _ _ _ _ (scoverA1 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRunA c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
          · unfold owns; iexists _; isplitr
            swap; · iexact HS1
            ipureintro; exact View.read_writes_of_cover _ _ _ _ _ (scoverA1 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
  · have hz : t.val ≠ 0 := fun h => h0 (by rw [h])
    simp only [before5 m c t h0]
    rw [PhiS_castSucc m c t, PhiS_pos m c _ _ hz]
    by_cases h9 : t.val % 10 = 9
    · rw [outsAt_C m c t h9]
      unfold stepC outC; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRunC c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsC t h9).1 (condsC t h9).2.1 (condsC t h9).2.2 (iblk m c 0 t) (iblk m c 1 t) (iblk m c 2 t) (iblk m c 3 t) (iblk m c 4 t) _ _ _).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC5 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsC t h9).1 (condsC t h9).2.1 (condsC t h9).2.2 (iblk m c 0 t) (iblk m c 1 t) (iblk m c 2 t) (iblk m c 3 t) (iblk m c 4 t) _ _ _)
    · rw [outsAt_B m c t h0 h9]
      unfold stepB outB; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRunB c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsB t h0 h9).1 (condsB t h0 h9).2.1 (condsB t h0 h9).2.2 (iblk m c 0 t) (iblk m c 1 t) (iblk m c 2 t) (iblk m c 3 t) (iblk m c 4 t) _ _ _).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB5 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsB t h0 h9).1 (condsB t h0 h9).2.1 (condsB t h0 h9).2.2 (iblk m c 0 t) (iblk m c 1 t) (iblk m c 2 t) (iblk m c 3 t) (iblk m c 4 t) _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 40 := N_0; omega)

/-! ## The run and the frame -/

set_option backward.isDefEq.respectTransparency.types false in
/-- Every weakly fair execution of the program terminates, every array of the pipeline ending at what the proof
    data says and every other buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program terminates, faults nowhere, and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdeal.FrameFacts.lean ====
/-
  The three branch conditions of the body decided over the 4 x 10 grid (the class tile is the inner coordinate:
  the first holds at tile 0, the second at tile 9, the third away from tile 9), that the output window is never
  idle, the staging memrefs the body is called with at a point, and the invariant's scratch buffers by name.
-/
import proofs.«168488_j18743237280105_2_alg».proof.Proof.Gen.KernelIdeal.Frame
import proofs.«168488_j18743237280105_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions over the grid -/

theorem hcond1 : ∀ t : Fin cfg0.N, k0_cond1 (grid0.coords t) = 1#1 ↔ t.val % 10 = 0 :=
  (by decide +kernel : ∀ t : Fin grid0.N, k0_cond1 (grid0.coords t) = 1#1 ↔ t.val % 10 = 0)
theorem hcond2 : ∀ t : Fin cfg0.N, k0_cond2 (grid0.coords t) = 1#1 ↔ t.val % 10 = 9 :=
  (by decide +kernel : ∀ t : Fin grid0.N, k0_cond2 (grid0.coords t) = 1#1 ↔ t.val % 10 = 9)
theorem hcond3 : ∀ t : Fin cfg0.N, k0_cond3 (grid0.coords t) = 1#1 ↔ ¬ t.val % 10 = 9 :=
  (by decide +kernel : ∀ t : Fin grid0.N, k0_cond3 (grid0.coords t) = 1#1 ↔ ¬ t.val % 10 = 9)

/-! ## No window is idle anywhere -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The output window is live at every coordinate: the second or the third condition holds (tile 9 or not). -/
theorem live5_all : ∀ i : grid0.Coords, cfg0.idle 5 i = false := by decide +kernel

/-! ## The memrefs the body is called with -/

abbrev VO5 : View sig .tc .vmem S1024x1 .f32 := (Memref.whole cc0_stg5_0 : Memref sig .tc .vmem S1024x1 .f32).view
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)
/-- The two scratch operands: the projected rows and the per-row threshold, kept from tile 0 to tile 9. -/
abbrev scP : Memref sig .tc .vmem S1024x64 .bf16 := Memref.whole cc0_scratch0
abbrev scT : Memref sig .tc .vmem S1024x1 .f32 := Memref.whole cc0_scratch1
abbrev VP : View sig .tc .vmem S1024x64 .bf16 := (scP).view
abbrev VT : View sig .tc .vmem S1024x1 .f32 := (scT).view

/-- The region's invariant names the two scratch buffers, each owned whole at some contents, and the generator register. -/
theorem PhiA_eq (c : Dev nD) :
    (Pipeline.ΦA spec0 c : sProp 𝕄)
      = iprop(iprop((∃ d, owns (c : Thread nD τ) scP fullShare d) ∗ (∃ d, owns (c : Thread nD τ) scT fullShare d)) ∗ (∃ r, prngReg c r)) := by
  unfold Pipeline.ΦA; rw [scopedRest0_eq]; simp only [scP, scT, owns_whole]; try rfl

end Cert.KernelIdeal.Hand

end
-- ==== Proof.KernelIdeal.RunA.lean ====
/-
  The body at a first-tile point (the first condition holds, the second fails, the third holds), run once on any
  whole memrefs: the five input buffers at given contents are handed back as they were; the output buffer and the
  two scratch buffers, found at anything, end with the stores' pieces written — the scratch with the projected rows
  and the threshold, the output with the zero column and then the first tile's masked hinge sums added to it.
-/
import proofs.«168488_j18743237280105_2_alg».proof.Proof.KernelIdeal.FrameFacts

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the first-tile case leaves in the output buffer and in the two scratch buffers, with the body's triple. -/
noncomputable def kernelRunA (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) :
    Σ' (L5 : List (View.Piece (Elt F) S1024x1 .f32)), Σ' (LS0 : List (View.Piece (Elt F) S1024x64 .bf16)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, ?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Hand

end
-- ==== Proof.KernelIdeal.RunB.lean ====
/-
  The body at a middle-tile point (the first and second conditions fail, the third holds): the inputs and the two scratch buffers at given contents are handed back as they were; the output buffer, found at what the tile before left, ends with this tile's masked hinge sums added to it.
-/
import proofs.«168488_j18743237280105_2_alg».proof.Proof.KernelIdeal.RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces this case leaves in the output buffer, with the body's triple. -/
noncomputable def kernelRunB (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : ¬ k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) :
    { L5 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ owns (c : Thread nD τ) arg9 fullShare xs1) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; isplitr; · ipureintro; exact harg9.read_unread _
    iexact HS1

end Cert.KernelIdeal.Hand

end
-- ==== Proof.KernelIdeal.RunC.lean ====
/-
  The body at a last-tile point (the first condition fails, the second holds, the third fails): as at a middle tile, with the padded columns masked as well.
-/
import proofs.«168488_j18743237280105_2_alg».proof.Proof.KernelIdeal.RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces this case leaves in the output buffer, with the body's triple. -/
noncomputable def kernelRunC (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : ¬ k0_cond1 i = 1#1) (hc2 : k0_cond2 i = 1#1) (hc3 : ¬ k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) :
    { L5 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xo5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xs0 ∗ owns (c : Thread nD τ) arg9 fullShare xs1) -∗ K ⟨⟩))
          ⊢ wp frame (wpE (defs₀ (F := F)) Variants.none c none) E (cc0__kernel i arg2 harg2 arg3 harg3 arg4 harg4 arg5 harg5 arg6 harg6 arg7 harg7 arg8 harg8 arg9 harg9) K } := by
  refine ⟨?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hf5; obtain rfl := harg8.eq_unread hfs0; obtain rfl := harg9.eq_unread hfs1
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _; isplitr; · ipureintro; exact harg8.read_unread _
      iexact HS0
    iexists _; isplitr; · ipureintro; exact harg9.read_unread _
    iexact HS1

end Cert.KernelIdeal.Hand

end
-- ==== Proof.KernelIdeal.Frame.lean ====
/-
  The region's frame by hand, as for a kernel whose output and scratch are carried from grid point to grid point:
  what each case of the body leaves in the output buffer and in the two scratch buffers (the stores' pieces read
  back), what they hold after every point by recursion on the point (`outsAt`: a first tile starts afresh, a
  middle or last tile adds to what the tile before left and keeps the scratch), the pipeline's proof data over
  it, the body obligation case by case, and the run of the whole program with every array named.
-/
import proofs.«168488_j18743237280105_2_alg».proof.Proof.KernelIdeal.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Outs (F : FTy → Type) [FloatOps F] : Type := Vec F S1024x1 .f32 × Vec F S1024x64 .bf16 × Vec F S1024x1 .f32

/-! ## What each case leaves -/

def outA (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) : Vec F S1024x1 .f32 :=
  VO5.read (Elt F) (VO5.writes (Elt F) VO5.junk (kernelRunA c i arg2 harg2 arg3 harg3 arg4 harg4 arg5 harg5 arg6 harg6 arg7 harg7 arg8 harg8 arg9 harg9 hc1 hc2 hc3 x0 x1 x2 x3 x4).1)
def soutA0 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) : Vec F S1024x64 .bf16 :=
  VP.read (Elt F) (VP.writes (Elt F) VP.junk (kernelRunA c i arg2 harg2 arg3 harg3 arg4 harg4 arg5 harg5 arg6 harg6 arg7 harg7 arg8 harg8 arg9 harg9 hc1 hc2 hc3 x0 x1 x2 x3 x4).2.1)
def soutA1 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) : Vec F S1024x1 .f32 :=
  VT.read (Elt F) (VT.writes (Elt F) VT.junk (kernelRunA c i arg2 harg2 arg3 harg3 arg4 harg4 arg5 harg5 arg6 harg6 arg7 harg7 arg8 harg8 arg9 harg9 hc1 hc2 hc3 x0 x1 x2 x3 x4).2.2.1)
theorem coverA5 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (y : S1024x1.Idx) :
    ∃ pc ∈ (kernelRunA c i arg2 harg2 arg3 harg3 arg4 harg4 arg5 harg5 arg6 harg6 arg7 harg7 arg8 harg8 arg9 harg9 hc1 hc2 hc3 x0 x1 x2 x3 x4).1, y ∈ pc.1.set :=
  View.cover_of_tiledL (kernelRunA c i arg2 harg2 arg3 harg3 arg4 harg4 arg5 harg5 arg6 harg6 arg7 harg7 arg8 harg8 arg9 harg9 hc1 hc2 hc3 x0 x1 x2 x3 x4).1 S1024x1.size (by sl_kernel_rfl) y
theorem scoverA0 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (y : S1024x64.Idx) :
    ∃ pc ∈ (kernelRunA c i arg2 harg2 arg3 harg3 arg4 harg4 arg5 harg5 arg6 harg6 arg7 harg7 arg8 harg8 arg9 harg9 hc1 hc2 hc3 x0 x1 x2 x3 x4).2.1, y ∈ pc.1.set :=
  View.cover_of_tiledL (kernelRunA c i arg2 harg2 arg3 harg3 arg4 harg4 arg5 harg5 arg6 harg6 arg7 harg7 arg8 harg8 arg9 harg9 hc1 hc2 hc3 x0 x1 x2 x3 x4).2.1 S1024x64.size (by sl_kernel_rfl) y
theorem scoverA1 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (y : S1024x1.Idx) :
    ∃ pc ∈ (kernelRunA c i arg2 harg2 arg3 harg3 arg4 harg4 arg5 harg5 arg6 harg6 arg7 harg7 arg8 harg8 arg9 harg9 hc1 hc2 hc3 x0 x1 x2 x3 x4).2.2.1, y ∈ pc.1.set :=
  View.cover_of_tiledL (kernelRunA c i arg2 harg2 arg3 harg3 arg4 harg4 arg5 harg5 arg6 harg6 arg7 harg7 arg8 harg8 arg9 harg9 hc1 hc2 hc3 x0 x1 x2 x3 x4).2.2.1 S1024x1.size (by sl_kernel_rfl) y

def outB (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : ¬ k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) : Vec F S1024x1 .f32 :=
  VO5.read (Elt F) (VO5.writes (Elt F) VO5.junk (kernelRunB c i arg2 harg2 arg3 harg3 arg4 harg4 arg5 harg5 arg6 harg6 arg7 harg7 arg8 harg8 arg9 harg9 hc1 hc2 hc3 x0 x1 x2 x3 x4 xo5 xs0 xs1).1)
theorem coverB5 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : ¬ k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) (y : S1024x1.Idx) :
    ∃ pc ∈ (kernelRunB c i arg2 harg2 arg3 harg3 arg4 harg4 arg5 harg5 arg6 harg6 arg7 harg7 arg8 harg8 arg9 harg9 hc1 hc2 hc3 x0 x1 x2 x3 x4 xo5 xs0 xs1).1, y ∈ pc.1.set :=
  View.cover_of_tiledL (kernelRunB c i arg2 harg2 arg3 harg3 arg4 harg4 arg5 harg5 arg6 harg6 arg7 harg7 arg8 harg8 arg9 harg9 hc1 hc2 hc3 x0 x1 x2 x3 x4 xo5 xs0 xs1).1 S1024x1.size (by sl_kernel_rfl) y
def outC (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : ¬ k0_cond1 i = 1#1) (hc2 : k0_cond2 i = 1#1) (hc3 : ¬ k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) : Vec F S1024x1 .f32 :=
  VO5.read (Elt F) (VO5.writes (Elt F) VO5.junk (kernelRunC c i arg2 harg2 arg3 harg3 arg4 harg4 arg5 harg5 arg6 harg6 arg7 harg7 arg8 harg8 arg9 harg9 hc1 hc2 hc3 x0 x1 x2 x3 x4 xo5 xs0 xs1).1)
theorem coverC5 (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole) (hc1 : ¬ k0_cond1 i = 1#1) (hc2 : k0_cond2 i = 1#1) (hc3 : ¬ k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) (y : S1024x1.Idx) :
    ∃ pc ∈ (kernelRunC c i arg2 harg2 arg3 harg3 arg4 harg4 arg5 harg5 arg6 harg6 arg7 harg7 arg8 harg8 arg9 harg9 hc1 hc2 hc3 x0 x1 x2 x3 x4 xo5 xs0 xs1).1, y ∈ pc.1.set :=
  View.cover_of_tiledL (kernelRunC c i arg2 harg2 arg3 harg3 arg4 harg4 arg5 harg5 arg6 harg6 arg7 harg7 arg8 harg8 arg9 harg9 hc1 hc2 hc3 x0 x1 x2 x3 x4 xo5 xs0 xs1).1 S1024x1.size (by sl_kernel_rfl) y

/-! ## Which case a point is in -/

theorem condsA (t : Fin cfg0.N) (h0 : t.val % 10 = 0) :
    k0_cond1 (grid0.coords t) = 1#1 ∧ ¬ k0_cond2 (grid0.coords t) = 1#1 ∧ k0_cond3 (grid0.coords t) = 1#1 :=
  ⟨(hcond1 t).mpr h0, fun h => by have := (hcond2 t).mp h; omega, (hcond3 t).mpr (by omega)⟩
theorem condsB (t : Fin cfg0.N) (h0 : ¬ t.val % 10 = 0) (h9 : ¬ t.val % 10 = 9) :
    ¬ k0_cond1 (grid0.coords t) = 1#1 ∧ ¬ k0_cond2 (grid0.coords t) = 1#1 ∧ k0_cond3 (grid0.coords t) = 1#1 :=
  ⟨fun h => h0 ((hcond1 t).mp h), fun h => h9 ((hcond2 t).mp h), (hcond3 t).mpr h9⟩
theorem condsC (t : Fin cfg0.N) (h9 : t.val % 10 = 9) :
    ¬ k0_cond1 (grid0.coords t) = 1#1 ∧ k0_cond2 (grid0.coords t) = 1#1 ∧ ¬ k0_cond3 (grid0.coords t) = 1#1 :=
  ⟨fun h => by have := (hcond1 t).mp h; omega, (hcond2 t).mpr h9, fun h => (hcond3 t).mp h h9⟩

/-! ## What the output buffer and the scratch hold after each point -/

def stepA (c : Dev nD) (t : Fin cfg0.N) (h0 : t.val % 10 = 0) : Outs F :=
  (outA c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t),
   soutA0 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t),
   soutA1 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
def stepB (c : Dev nD) (t : Fin cfg0.N) (h0 : ¬ t.val % 10 = 0) (h9 : ¬ t.val % 10 = 9) (prev : Outs F) : Outs F :=
  (outB c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsB t h0 h9).1 (condsB t h0 h9).2.1 (condsB t h0 h9).2.2 (iblk m c 0 t) (iblk m c 1 t) (iblk m c 2 t) (iblk m c 3 t) (iblk m c 4 t) prev.1 prev.2.1 prev.2.2, prev.2.1, prev.2.2)
def stepC (c : Dev nD) (t : Fin cfg0.N) (h9 : t.val % 10 = 9) (prev : Outs F) : Outs F :=
  (outC c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsC t h9).1 (condsC t h9).2.1 (condsC t h9).2.2 (iblk m c 0 t) (iblk m c 1 t) (iblk m c 2 t) (iblk m c 3 t) (iblk m c 4 t) prev.1 prev.2.1 prev.2.2, prev.2.1, prev.2.2)

/-- After position `n`: a first tile starts afresh; a later tile works on what the tile before left. -/
def outsAt (c : Dev nD) : (n : ℕ) → n < cfg0.N → Outs F
  | 0, hn => stepA m c ⟨0, hn⟩ (Nat.zero_mod _)
  | n + 1, hn =>
    if h0 : (n + 1) % 10 = 0 then stepA m c ⟨n + 1, hn⟩ h0
    else if h9 : (n + 1) % 10 = 9 then stepC m c ⟨n + 1, hn⟩ h9 (outsAt c n (Nat.lt_of_succ_lt hn))
    else stepB m c ⟨n + 1, hn⟩ h0 h9 (outsAt c n (Nat.lt_of_succ_lt hn))

theorem outsAt_A (c : Dev nD) (t : Fin cfg0.N) (h0 : t.val % 10 = 0) : outsAt m c t.val t.isLt = stepA m c t h0 := by
  obtain ⟨n, hn⟩ := t
  cases n with
  | zero => rfl
  | succ n => exact dif_pos h0
theorem outsAt_B (c : Dev nD) (t : Fin cfg0.N) (h0 : ¬ t.val % 10 = 0) (h9 : ¬ t.val % 10 = 9) :
    outsAt m c t.val t.isLt = stepB m c t h0 h9 (outsAt m c (t.val - 1) (Nat.lt_of_le_of_lt (Nat.sub_le _ _) t.isLt)) := by
  obtain ⟨n, hn⟩ := t
  cases n with
  | zero => exact absurd (Nat.zero_mod _) h0
  | succ n => exact (dif_neg h0).trans (dif_neg h9)
theorem outsAt_C (c : Dev nD) (t : Fin cfg0.N) (h9 : t.val % 10 = 9) :
    outsAt m c t.val t.isLt = stepC m c t h9 (outsAt m c (t.val - 1) (Nat.lt_of_le_of_lt (Nat.sub_le _ _) t.isLt)) := by
  obtain ⟨n, hn⟩ := t
  cases n with
  | zero => exact absurd (show 0 % 10 = 9 from h9) (by decide)
  | succ n =>
    have h9' : (n + 1) % 10 = 9 := h9
    exact (dif_neg (by omega)).trans (dif_pos h9')

/-- The invariant before position `n`: at first the scratch at anything; afterwards at what the point before left. -/
def PhiS (c : Dev nD) : (n : ℕ) → n ≤ cfg0.N → sProp 𝕄
  | 0, _ => Pipeline.ΦA spec0 c
  | n + 1, hn => iprop(iprop(owns (c : Thread nD τ) scP fullShare ((outsAt m c n hn).2.1) ∗ owns (c : Thread nD τ) scT fullShare ((outsAt m c n hn).2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scP fullShare ((outsAt m c n hn).2.1) ∗ owns (c : Thread nD τ) scT fullShare ((outsAt m c n hn).2.2)) ∗ (∃ r, prngReg c r)) := rfl
theorem PhiS_pos (c : Dev nD) (n : ℕ) (h : n ≤ cfg0.N) (hz : n ≠ 0) :
    PhiS m c n h = iprop(iprop(owns (c : Thread nD τ) scP fullShare ((outsAt m c (n - 1) (by omega)).2.1) ∗ owns (c : Thread nD τ) scT fullShare ((outsAt m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
/-- Away from a first tile the output buffer holds what the tile before left: it was not written back in between. -/
theorem before5 (c : Dev nD) (t : Fin cfg0.N) (h0 : ¬ t.val % 10 = 0) (d) :
    (dats m 0 c).before 5 t d = (outsAt m c (t.val - 1) (Nat.lt_of_le_of_lt (Nat.sub_le _ _) t.isLt)).1 := by
  rw [Dat.before_out_kept _ 5 rfl t (fun h => h0 (by rw [h])) (Bool.eq_false_iff.mpr fun h => by have := (flush0_5 _).mp h; dsimp only at this; omega)
    live5_all (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 40 := lt_of_lt_of_eq t.isLt (show cfg0.N = 40 from N_0)
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  by_cases h0 : t.val % 10 = 0
  · rw [outsAt_A m c t h0]
    unfold stepA outA soutA0 soutA1; (try dsimp only)
    by_cases hz : t.val = 0
    · rw [PhiS_castSucc m c t, PhiS_zero m c _ _ hz, PhiA_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRunA c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
          · unfold owns; iexists _; isplitr
            swap; · iexact HS1
            ipureintro; exact View.read_writes_of_cover _ _ _ _ _ (scoverA1 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRunA c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scoverA0 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
          · unfold owns; iexists _; isplitr
            swap; · iexact HS1
            ipureintro; exact View.read_writes_of_cover _ _ _ _ _ (scoverA1 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverA5 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsA t h0).1 (condsA t h0).2.1 (condsA t h0).2.2 (iblk m c 0 t) (iblk m c 1 t) (iblk m c 2 t) (iblk m c 3 t) (iblk m c 4 t))
  · have hz : t.val ≠ 0 := fun h => h0 (by rw [h])
    simp only [before5 m c t h0]
    rw [PhiS_castSucc m c t, PhiS_pos m c _ _ hz]
    by_cases h9 : t.val % 10 = 9
    · rw [outsAt_C m c t h9]
      unfold stepC outC; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRunC c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsC t h9).1 (condsC t h9).2.1 (condsC t h9).2.2 (iblk m c 0 t) (iblk m c 1 t) (iblk m c 2 t) (iblk m c 3 t) (iblk m c 4 t) _ _ _).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC5 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsC t h9).1 (condsC t h9).2.1 (condsC t h9).2.2 (iblk m c 0 t) (iblk m c 1 t) (iblk m c 2 t) (iblk m c 3 t) (iblk m c 4 t) _ _ _)
    · rw [outsAt_B m c t h0 h9]
      unfold stepB outB; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRunB c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsB t h0 h9).1 (condsB t h0 h9).2.1 (condsB t h0 h9).2.2 (iblk m c 0 t) (iblk m c 1 t) (iblk m c 2 t) (iblk m c 3 t) (iblk m c 4 t) _ _ _).2 Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, ⟨%e5, H5⟩, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB5 c (grid0.coords t) (ms0 t) (hs0 t) (ms1 t) (hs1 t) (ms2 t) (hs2 t) (ms3 t) (hs3 t) (ms4 t) (hs4 t) (ms5 t) (hs5 t) scP (Memref.isWhole_whole _) scT (Memref.isWhole_whole _) (condsB t h0 h9).1 (condsB t h0 h9).2.1 (condsB t h0 h9).2.2 (iblk m c 0 t) (iblk m c 1 t) (iblk m c 2 t) (iblk m c 3 t) (iblk m c 4 t) _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  Phi_out m c _ (by rw [Fin.val_last]; have : cfg0.N = 40 := N_0; omega)

/-! ## The run and the frame -/

set_option backward.isDefEq.respectTransparency.types false in
/-- Every weakly fair execution of the program terminates, every array of the pipeline ending at what the proof
    data says and every other buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program terminates, faults nowhere, and leaves its four argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KernelIdeal.CaseValues.lean ====
/-
  What each case of the body leaves, as values: the pieces the three runs found, read back, are the body's payloads
  of the blocks it loaded. At a first tile the scratch ends at the projected rows (rounded) and at the per-row
  threshold, and the output at the first tile's masked hinge sums added to the zero column — the scratch and the zero
  column are stored first and loaded back, and a load of what one covering store left reads that store's payload.
  At a middle tile the output ends at the tile's masked hinge sums added to what the tile before left, the scratch
  as it was found; at the last tile the same with the padded columns masked as well.
-/
import proofs.«168488_j18743237280105_2_alg».proof.Proof.KernelIdeal.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The zero offsets of a rank-2 whole-buffer access. -/
theorem hz2 : (![0, 0] : Fin 2 → Nat) = fun _ => 0 := funext fun a => by fin_cases a <;> rfl

/-! ## The first-tile case -/

/-- The first scratch ends at the rounded projected rows. -/
theorem soutA0_eq (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) :
    soutA0 c i arg2 harg2 arg3 harg3 arg4 harg4 arg5 harg5 arg6 harg6 arg7 harg7 arg8 harg8 arg9 harg9 hc1 hc2 hc3 x0 x1 x2 x3 x4 = k0_pay2 x0 x1 := by
  unfold soutA0
  rw [View.read_writes_eq_canon _ _ _ (scoverA0 c i arg2 harg2 arg3 harg3 arg4 harg4 arg5 harg5 arg6 harg6 arg7 harg7 arg8 harg8 arg9 harg9 hc1 hc2 hc3 x0 x1 x2 x3 x4)]
  unfold kernelRunA
  dsimp only
  sl_unfold_words
  rw [View.canon_unit_zero hz2]
  simp only [View.readAt_eq_ld, harg2.read_unread, harg3.read_unread, harg4.read_unread, harg5.read_unread, harg6.read_unread,
    View.ld_unit_zero (S := S1024x1024) hz2, View.ld_unit_zero (S := S1024x64) hz2, View.ld_unit_zero (S := S64x2048) hz2,
    View.ld_unit_zero (S := S1024x1) hz2]

/-- The second scratch ends at the per-row threshold. -/
theorem soutA1_eq (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) :
    soutA1 c i arg2 harg2 arg3 harg3 arg4 harg4 arg5 harg5 arg6 harg6 arg7 harg7 arg8 harg8 arg9 harg9 hc1 hc2 hc3 x0 x1 x2 x3 x4 = k0_pay3 x0 x1 x2 := by
  unfold soutA1
  rw [View.read_writes_eq_canon _ _ _ (scoverA1 c i arg2 harg2 arg3 harg3 arg4 harg4 arg5 harg5 arg6 harg6 arg7 harg7 arg8 harg8 arg9 harg9 hc1 hc2 hc3 x0 x1 x2 x3 x4)]
  unfold kernelRunA
  dsimp only
  sl_unfold_words
  rw [View.canon_unit_zero hz2]
  simp only [View.readAt_eq_ld, harg2.read_unread, harg3.read_unread, harg4.read_unread, harg5.read_unread, harg6.read_unread,
    View.ld_unit_zero (S := S1024x1024) hz2, View.ld_unit_zero (S := S1024x64) hz2, View.ld_unit_zero (S := S64x2048) hz2,
    View.ld_unit_zero (S := S1024x1) hz2]

/-- The output ends at the first tile's sums over the zero column: the later of its two stores, whose loads of the
    scratch and of the output read back the case's own earlier stores. -/
theorem outA_eq (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) :
    outA c i arg2 harg2 arg3 harg3 arg4 harg4 arg5 harg5 arg6 harg6 arg7 harg7 arg8 harg8 arg9 harg9 hc1 hc2 hc3 x0 x1 x2 x3 x4
      = k0_pay9 i (k0_pay2 x0 x1) x3 (k0_pay3 x0 x1 x2) x4 (k0_pay4 (F := F)) := by
  unfold outA
  rw [View.read_writes_eq_canon _ _ _ (coverA5 c i arg2 harg2 arg3 harg3 arg4 harg4 arg5 harg5 arg6 harg6 arg7 harg7 arg8 harg8 arg9 harg9 hc1 hc2 hc3 x0 x1 x2 x3 x4)]
  unfold kernelRunA
  dsimp only
  sl_unfold_words
  rw [View.canon_cons_unit_zero (S := S1024x1) hz2, View.readCov_unit_zero (S := S1024x64) _ hz2,
    View.readCov_unit_zero (S := S1024x1) _ hz2, View.readCov_unit_zero (S := S1024x1) _ hz2]
  simp only [View.readAt_eq_ld, harg2.read_unread, harg3.read_unread, harg4.read_unread, harg5.read_unread, harg6.read_unread,
    View.ld_unit_zero (S := S1024x1024) hz2, View.ld_unit_zero (S := S1024x64) hz2, View.ld_unit_zero (S := S64x2048) hz2,
    View.ld_unit_zero (S := S1024x1) hz2]

/-! ## The middle-tile and last-tile cases -/

/-- A middle tile adds its masked hinge sums to what the output held. -/
theorem outB_eq (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : ¬ k0_cond1 i = 1#1) (hc2 : ¬ k0_cond2 i = 1#1) (hc3 : k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) :
    outB c i arg2 harg2 arg3 harg3 arg4 harg4 arg5 harg5 arg6 harg6 arg7 harg7 arg8 harg8 arg9 harg9 hc1 hc2 hc3 x0 x1 x2 x3 x4 xo5 xs0 xs1 = k0_pay9 i xs0 x3 xs1 x4 xo5 := by
  unfold outB
  rw [View.read_writes_eq_canon _ _ _ (coverB5 c i arg2 harg2 arg3 harg3 arg4 harg4 arg5 harg5 arg6 harg6 arg7 harg7 arg8 harg8 arg9 harg9 hc1 hc2 hc3 x0 x1 x2 x3 x4 xo5 xs0 xs1)]
  unfold kernelRunB
  dsimp only
  rw [View.canon_unit_zero hz2]
  simp only [View.readAt_eq_ld, harg5.read_unread, harg6.read_unread, harg7.read_unread, harg8.read_unread, harg9.read_unread,
    View.ld_unit_zero (S := S1024x64) hz2, View.ld_unit_zero (S := S64x2048) hz2, View.ld_unit_zero (S := S1024x1) hz2]

/-- The last tile does the same with the padded columns masked as well. -/
theorem outC_eq (c : Dev nD) (i : grid0.Coords) (arg2 : Memref sig .tc .vmem S1024x1024 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S64x2048 .f32) (harg5 : arg5.IsWhole) (arg6 : Memref sig .tc .vmem S1024x1 .i32) (harg6 : arg6.IsWhole) (arg7 : Memref sig .tc .vmem S1024x1 .f32) (harg7 : arg7.IsWhole) (arg8 : Memref sig .tc .vmem S1024x64 .bf16) (harg8 : arg8.IsWhole) (arg9 : Memref sig .tc .vmem S1024x1 .f32) (harg9 : arg9.IsWhole)
    (hc1 : ¬ k0_cond1 i = 1#1) (hc2 : k0_cond2 i = 1#1) (hc3 : ¬ k0_cond3 i = 1#1) (x0 : Vec F S1024x1024 .f32) (x1 : Vec F S1024x64 .f32) (x2 : Vec F S1024x64 .f32) (x3 : Vec F S64x2048 .f32) (x4 : Vec F S1024x1 .i32) (xo5 : Vec F S1024x1 .f32) (xs0 : Vec F S1024x64 .bf16) (xs1 : Vec F S1024x1 .f32) :
    outC c i arg2 harg2 arg3 harg3 arg4 harg4 arg5 harg5 arg6 harg6 arg7 harg7 arg8 harg8 arg9 harg9 hc1 hc2 hc3 x0 x1 x2 x3 x4 xo5 xs0 xs1 = k0_pay8 i xs0 x3 xs1 x4 xo5 := by
  unfold outC
  rw [View.read_writes_eq_canon _ _ _ (coverC5 c i arg2 harg2 arg3 harg3 arg4 harg4 arg5 harg5 arg6 harg6 arg7 harg7 arg8 harg8 arg9 harg9 hc1 hc2 hc3 x0 x1 x2 x3 x4 xo5 xs0 xs1)]
  unfold kernelRunC
  dsimp only
  rw [View.canon_unit_zero hz2]
  simp only [View.readAt_eq_ld, harg5.read_unread, harg6.read_unread, harg7.read_unread, harg8.read_unread, harg9.read_unread,
    View.ld_unit_zero (S := S1024x64) hz2, View.ld_unit_zero (S := S64x2048) hz2, View.ld_unit_zero (S := S1024x1) hz2]

end Cert.KernelIdeal.Hand

end
-- ==== Proof.Spec.lean ====
/-
  The mathematics both programs compute, as plain functions of the four argument arrays read on the
  extended reals: the bilinear similarity  sims b c = sum_k (sum_d X b d * W d k) * E c k,  the margin hinge
  against the true label's similarity, summed over the wrong classes, and the mean over the samples.
  `perSample` is the reference's arrangement (one sum over the 20000 classes, hinge (m + s) - t);
  `accK` is the kernel's (ten tiles of 2048 columns over the class axis padded with zero rows to 20480,
  hinge s - (t - m), the label's column and the padded columns masked, the tiles added one after the other
  onto zero).
-/
import Idealize.ShloMosaic.PureOps.Ideal
import Idealize.ShloMosaic.Lib.ValueIdx

noncomputable section

open Idealize.ShloMosaic Idealize.ShloMosaic.ValueIdx
open scoped BigOperators

namespace Cert.Devise

abbrev SX : Shape := ⟨2, ![4096, 1024]⟩
abbrev SY : Shape := ⟨1, ![4096]⟩
abbrev SE : Shape := ⟨2, ![20000, 64]⟩
abbrev SW : Shape := ⟨2, ![1024, 64]⟩

/-- The margin: the one f32 word (0.1 rounded) both programs carry. -/
def margin : EReal := Ideal.ofBits .f32 0x3DCCCCCD#32

variable (X : SX.Idx → EReal) (y : SY.Idx → BitVec 32) (E : SE.Idx → EReal) (W : SW.Idx → EReal)

/-- Row `b` of X times column `k` of W. -/
def proj (b : Fin 4096) (k : Fin 64) : EReal := ∑ d : Fin 1024, X (ix2 b d) * W (ix2 d k)

/-- The similarity of sample `b` and class `c`. -/
def sims (b : Fin 4096) (c : Fin 20000) : EReal := ∑ k : Fin 64, proj X W b k * E (ix2 c k)

/-- Sample `b`'s label as a class (the word itself when it lies in [0, 20000)). -/
def label (b : Fin 4096) : Fin 20000 := ⟨(y (ix1 b)).toNat % 20000, Nat.mod_lt _ (by norm_num)⟩

/-- The reference's per-sample loss: over the wrong classes, the hinge of margin + similarity - true similarity. -/
def perSample (b : Fin 4096) : EReal :=
  ∑ c : Fin 20000, if c = label y b then 0 else max ((margin + sims X E W b c) - sims X E W b (label y b)) 0

/-- The mean over the samples of a per-sample loss, as both programs end: the sum onto zero, divided by 4096. -/
def lossOf (p : Fin 4096 → EReal) : EReal :=
  Ideal.div (Ideal.ofBits .f32 0x00000000#32 + ∑ b : Fin 4096, p b) (Ideal.ofBits .f32 0x45800000#32)

/-! ## The kernel's arrangement -/

/-- The class rows padded with zero rows to 20480. -/
def padE (col : Fin 20480) (k : Fin 64) : EReal := if h : col.val < 20000 then E (ix2 ⟨col.val, h⟩ k) else 0

/-- The threshold the kernel keeps per sample: the true similarity less the margin. -/
def threshK (b : Fin 4096) : EReal := (∑ k : Fin 64, proj X W b k * E (ix2 (label y b) k)) - margin

/-- The similarity against a padded column. -/
def simsK (b : Fin 4096) (col : Fin 20480) : EReal := ∑ k : Fin 64, proj X W b k * padE E col k

/-- Column `j` of tile `t`. -/
def colOf (t : Fin 10) (j : Fin 2048) : Fin 20480 := ⟨2048 * t.val + j.val, by have := t.isLt; have := j.isLt; omega⟩

/-- A column counts for sample `b`: it is a real class and not the label. -/
def keep (b : Fin 4096) (col : Fin 20480) : Prop := BitVec.ofNat 32 col.val ≠ y (ix1 b) ∧ col.val < 20000

open Classical in
/-- One tile's masked hinge sum. -/
def tileK (b : Fin 4096) (t : Fin 10) : EReal :=
  ∑ j : Fin 2048, if keep y b (colOf t j) then max (simsK X E W b (colOf t j) - threshK X y E W b) 0 else 0

/-- The accumulator after the first `n` tiles. -/
def accK (b : Fin 4096) : ℕ → EReal
  | 0 => 0
  | n + 1 => accK b n + (if h : n < 10 then tileK X y E W b ⟨n, h⟩ else 0)

end Cert.Devise

end
-- ==== Proof.KernelIdeal.Payloads.lean ====
/-
  The body's arithmetic read at an index, on the extended reals: the projection block (rows of the sample
  block times the projection matrix, a sum over the 1024 input coordinates), its stored copy, the threshold
  column (the projected row against the label's embedding row, summed over the 64 coordinates, less the
  margin) and the accumulator's zero start. Also the two layout facts every keep-dimension row sum needs: a
  column vector cast from a vector reads the vector's entry, and a sum over the columns of a block reads as
  the sum of the row's entries.
-/
import proofs.«168488_j18743237280105_2_alg».proof.Proof.Gen.KernelIdeal.Skeleton
import proofs.«168488_j18743237280105_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx
open scoped BigOperators

/-! ## The projection: rows of the sample block times the projection matrix -/

theorem lhsA_0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl
theorem lhsA_1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhsA_0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhsA_1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- The left operand's index at output (r, k) and contraction coordinate d is (r, d). -/
theorem lhsIdxA (r : Fin 1024) (k : Fin 64) (d : Fin 1024) :
    dot_S1024x1024_S1024x64_S1024x64_1_0_0_1_n_n.lhsIdx (ix2 r k) ((contrEquiv1 dot_S1024x1024_S1024x64_S1024x64_1_0_0_1_n_n 1024 rfl rfl).symm d) = ix2 r d := by
  have hd := contrEquiv1_symm_val dot_S1024x1024_S1024x64_S1024x64_1_0_0_1_n_n 1024 rfl rfl d
  funext a
  refine Fin.ext ?_
  match a with
  | ⟨0, _⟩ => exact lhsA_0 _ _
  | ⟨1, _⟩ => exact (lhsA_1 _ _).trans hd

/-- The right operand's index there is (d, k). -/
theorem rhsIdxA (r : Fin 1024) (k : Fin 64) (d : Fin 1024) :
    dot_S1024x1024_S1024x64_S1024x64_1_0_0_1_n_n.rhsIdx (ix2 r k) ((contrEquiv1 dot_S1024x1024_S1024x64_S1024x64_1_0_0_1_n_n 1024 rfl rfl).symm d) = ix2 d k := by
  have hd := contrEquiv1_symm_val dot_S1024x1024_S1024x64_S1024x64_1_0_0_1_n_n 1024 rfl rfl d
  funext a
  refine Fin.ext ?_
  match a with
  | ⟨0, _⟩ => exact (rhsA_0 _ _).trans hd
  | ⟨1, _⟩ => exact rhsA_1 _ _

/-- The projection payload at (r, k): row r of the first operand times column k of the second. -/
theorem pay1_apply (x0 : Vec Ideal S1024x1024 .f32) (x1 : Vec Ideal S1024x64 .f32) (r : Fin 1024) (k : Fin 64) :
    k0_pay1 (F := Ideal) x0 x1 (ix2 r k) = ∑ d : Fin 1024, x0 (ix2 r d) * x1 (ix2 d k) := by
  unfold k0_pay1
  simp only [matmul]
  rw [Ideal.matmul_constant_zero_apply,
    ← Equiv.sum_comp (contrEquiv1 dot_S1024x1024_S1024x64_S1024x64_1_0_0_1_n_n 1024 rfl rfl).symm]
  refine Finset.sum_congr rfl fun d _ => ?_
  rw [lhsIdxA, rhsIdxA, truncf_apply, truncf_apply]

/-- The stored projection block is the same sum (the format change is the identity on extended reals). -/
theorem pay2_apply (x0 : Vec Ideal S1024x1024 .f32) (x1 : Vec Ideal S1024x64 .f32) (r : Fin 1024) (k : Fin 64) :
    k0_pay2 (F := Ideal) x0 x1 (ix2 r k) = ∑ d : Fin 1024, x0 (ix2 r d) * x1 (ix2 d k) := by
  unfold k0_pay2
  simp only [shapeCast_self]
  rw [truncf_apply, pay1_apply]

/-- The accumulator's initial block is zero everywhere. -/
theorem pay4_apply (j : S1024x1.Idx) : k0_pay4 (F := Ideal) j = 0 := by
  unfold k0_pay4
  show Ideal.ofBits .f32 0x00000000#32 = 0
  exact Ideal.ofBits_zero_f32

/-! ## The threshold: the label row's similarity less the margin -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `r` with column `k` put back: the index a sum over the columns reads. -/
theorem lift_cols {n m : ℕ} (h : (⟨2, ![n, m]⟩ : Shape).Reduces [1] ⟨1, ![n]⟩) (r : Fin n) (k : Fin m) :
    h.lift (ix1 r) k = ix2 r k := by
  funext a
  refine Fin.ext ?_
  match a with
  | ⟨0, _⟩ => rfl
  | ⟨1, _⟩ => rfl

/-- A sum over the columns of an `[n, m]` block onto the zero word, read at row `r`: the sum of the row's entries. -/
theorem laneSum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (r : Fin n) :
    multiReduction (F := Ideal) .add [1] ⟨1, ![n]⟩ src 0x00000000#32 h hφ hacc (ix1 r) = ∑ k : Fin m, src (ix2 r k) := by
  refine (Ideal.multiReduction_add_single src 0x00000000#32 h hφ hacc (ix1 r)).trans ?_
  exact Finset.sum_congr rfl fun k _ => congrArg src (lift_cols h r k)

/-- The threshold payload at row `r`: the projected row against the label's row, summed over the 64 coordinates, less the margin. -/
theorem pay3_apply (x0 : Vec Ideal S1024x1024 .f32) (x1 : Vec Ideal S1024x64 .f32) (x2 : Vec Ideal S1024x64 .f32) (r : Fin 1024) :
    k0_pay3 (F := Ideal) x0 x1 x2 (ix2 r 0)
      = (∑ k : Fin 64, (∑ d : Fin 1024, x0 (ix2 r d) * x1 (ix2 d k)) * x2 (ix2 r k)) - Cert.Devise.margin := by
  unfold k0_pay3
  simp only [shapeCast_self]
  rw [subf_apply, broadcast_apply, shapeCast_a_a1_apply, laneSum_apply]
  simp only [mulf_apply, pay1_apply]
  rfl

end Cert.KernelIdeal.Pay
end
-- ==== Proof.KernelIdeal.PayloadsTile.lean ====
/-
  One tile of the class axis read at an index, on the extended reals: the similarity of the projected row
  with each of the tile's 2048 class columns (a sum over the 64 coordinates), less the row's threshold and
  cut at zero; the column's number, 2048 times the tile plus the position, which never wraps in 32 bits;
  the two masks (the column is not the row's label; the column is one of the 20000 classes) as conditions;
  and the accumulator's step, the row's entry plus the sum over the tile of the masked hinges.
-/
import proofs.«168488_j18743237280105_2_alg».proof.Proof.KernelIdeal.Payloads

noncomputable section

namespace Cert.KernelIdeal.Pay

open Cert.KernelIdeal Cert.KernelIdeal.Gen Idealize.ShloMosaic Idealize.ShloMosaic.ValueIdx
open scoped BigOperators

/-! ## Words: the comparisons and the mask as conditions -/

/-- An integer "not equal" is the bit of the inequality. -/
theorem cmpi_ne_eq (a b : BitVec 32) : IntOp.cmpi .ne a b = if a ≠ b then 1#1 else 0#1 := by
  show BitVec.ofBool (a != b) = _
  by_cases h : a = b
  · rw [if_neg (not_not.mpr h)]
    have e : (a != b) = false := by rw [h]; simp
    rw [e]; rfl
  · rw [if_pos h]
    have e : (a != b) = true := by rw [bne_iff_ne]; exact h
    rw [e]; rfl

/-- Below 20480 nothing wraps: the signed comparison of a column number with 20000 is the comparison of the numbers. -/
theorem cmpi_slt_20000 (n : Nat) (hn : n < 20480) :
    IntOp.cmpi .slt (BitVec.ofNat 32 n) 20000#32 = if n < 20000 then 1#1 else 0#1 := by
  have hnat : (BitVec.ofNat 32 n).toNat = n := by rw [BitVec.toNat_ofNat]; exact Nat.mod_eq_of_lt (by omega)
  have hint : (BitVec.ofNat 32 n).toInt = (n : Int) := by
    rw [BitVec.toInt_eq_toNat_of_lt (by rw [hnat]; omega), hnat]
  have h2 : (20000#32 : BitVec 32).toInt = 20000 := by decide
  show BitVec.ofBool ((BitVec.ofNat 32 n).slt 20000#32) = _
  by_cases h : n < 20000
  · rw [if_pos h]
    have e : (BitVec.ofNat 32 n).slt 20000#32 = true := by
      rw [BitVec.slt_iff_toInt_lt, hint, h2]; omega
    rw [e]; rfl
  · rw [if_neg h]
    have e : (BitVec.ofNat 32 n).slt 20000#32 = false := by
      rw [Bool.eq_false_iff, Ne, BitVec.slt_iff_toInt_lt, hint, h2]; omega
    rw [e]; rfl

/-- The conjunction of two condition bits is the bit of the conjunction. -/
theorem andi_bits (p q : Prop) [Decidable p] [Decidable q] :
    IntOp.andi (if p then 1#1 else 0#1) (if q then 1#1 else 0#1) = if p ∧ q then (1#1 : BitVec 1) else 0#1 := by
  by_cases hp : p <;> by_cases hq : q <;> simp [hp, hq, IntOp.andi]

/-- A select on a condition's bit is the choice on the condition. -/
theorem select_bit {α : Type} (p : Prop) [Decidable p] (a b : α) :
    Scalar.select (if p then 1#1 else 0#1) a b = if p then a else b := by
  by_cases hp : p
  · rw [if_pos hp, if_pos hp]; exact select_one a b
  · rw [if_neg hp, if_neg hp]; exact select_zero a b

/-- The zero word read as an extended real, in the form a select's other branch carries it. -/
theorem zeroWord : (FloatOps.ofBits (F := Ideal) .f32 0x00000000#32) = (0 : EReal) := Ideal.ofBits_zero_f32

/-! ## One tile: similarities against 2048 class columns, hinged and masked -/

theorem lhsB_0 (i : S1024x2048.Idx) (q : dot_S1024x64_S64x2048_S1024x2048_1_0_0_1_n_n.contr.Idx) : (dot_S1024x64_S64x2048_S1024x2048_1_0_0_1_n_n.lhsIdx i q 0).val = (i 0).val := by
  unfold DotDims.lhsIdx
  rw [dif_neg (show ¬(0 : Fin S1024x64.rank) ∈ dot_S1024x64_S64x2048_S1024x2048_1_0_0_1_n_n.lhsBatch by decide),
    dif_pos (show (0 : Fin S1024x64.rank) ∈ dot_S1024x64_S64x2048_S1024x2048_1_0_0_1_n_n.lhsNonContracting by decide)]
  rfl
theorem lhsB_1 (i : S1024x2048.Idx) (q : dot_S1024x64_S64x2048_S1024x2048_1_0_0_1_n_n.contr.Idx) : (dot_S1024x64_S64x2048_S1024x2048_1_0_0_1_n_n.lhsIdx i q 1).val = (q ⟨0, by decide⟩).val :=
  dot_S1024x64_S64x2048_S1024x2048_1_0_0_1_n_n.lhsIdx_val_of_single rfl i q
theorem rhsB_0 (i : S1024x2048.Idx) (q : dot_S1024x64_S64x2048_S1024x2048_1_0_0_1_n_n.contr.Idx) : (dot_S1024x64_S64x2048_S1024x2048_1_0_0_1_n_n.rhsIdx i q 0).val = (q ⟨0, by decide⟩).val :=
  dot_S1024x64_S64x2048_S1024x2048_1_0_0_1_n_n.rhsIdx_val_of_single rfl i q
theorem rhsB_1 (i : S1024x2048.Idx) (q : dot_S1024x64_S64x2048_S1024x2048_1_0_0_1_n_n.contr.Idx) : (dot_S1024x64_S64x2048_S1024x2048_1_0_0_1_n_n.rhsIdx i q 1).val = (i 1).val := by
  unfold DotDims.rhsIdx
  rw [dif_neg (show ¬(1 : Fin S64x2048.rank) ∈ dot_S1024x64_S64x2048_S1024x2048_1_0_0_1_n_n.rhsBatch by decide),
    dif_pos (show (1 : Fin S64x2048.rank) ∈ dot_S1024x64_S64x2048_S1024x2048_1_0_0_1_n_n.rhsNonContracting by decide)]
  rfl

/-- The left operand's index at output (r, k) and contraction coordinate d is (r, d). -/
theorem lhsIdxB (r : Fin 1024) (k : Fin 2048) (d : Fin 64) :
    dot_S1024x64_S64x2048_S1024x2048_1_0_0_1_n_n.lhsIdx (ix2 r k) ((contrEquiv1 dot_S1024x64_S64x2048_S1024x2048_1_0_0_1_n_n 64 rfl rfl).symm d) = ix2 r d := by
  have hd := contrEquiv1_symm_val dot_S1024x64_S64x2048_S1024x2048_1_0_0_1_n_n 64 rfl rfl d
  funext a
  refine Fin.ext ?_
  match a with
  | ⟨0, _⟩ => exact lhsB_0 _ _
  | ⟨1, _⟩ => exact (lhsB_1 _ _).trans hd

/-- The right operand's index there is (d, k). -/
theorem rhsIdxB (r : Fin 1024) (k : Fin 2048) (d : Fin 64) :
    dot_S1024x64_S64x2048_S1024x2048_1_0_0_1_n_n.rhsIdx (ix2 r k) ((contrEquiv1 dot_S1024x64_S64x2048_S1024x2048_1_0_0_1_n_n 64 rfl rfl).symm d) = ix2 d k := by
  have hd := contrEquiv1_symm_val dot_S1024x64_S64x2048_S1024x2048_1_0_0_1_n_n 64 rfl rfl d
  funext a
  refine Fin.ext ?_
  match a with
  | ⟨0, _⟩ => exact (rhsB_0 _ _).trans hd
  | ⟨1, _⟩ => exact rhsB_1 _ _

/-- The tile's product at (r, j): the projected row r against class column j. -/
theorem tileDot_apply (a : FVec Ideal S1024x64 .bf16) (b : FVec Ideal S64x2048 .bf16) (r : Fin 1024) (j : Fin 2048) :
    FloatOps.matmul dot_S1024x64_S64x2048_S1024x2048_1_0_0_1_n_n none a b (constant (F := Ideal) S1024x2048 .f32 0x00000000#32) (ix2 r j)
      = ∑ k : Fin 64, a (ix2 r k) * b (ix2 k j) := by
  rw [Ideal.matmul_constant_zero_apply, ← Equiv.sum_comp (contrEquiv1 dot_S1024x64_S64x2048_S1024x2048_1_0_0_1_n_n 64 rfl rfl).symm]
  refine Finset.sum_congr rfl fun k _ => ?_
  rw [lhsIdxB, rhsIdxB]

/-- An `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The hinge at (r, j): the similarity less the row's threshold, cut at zero. -/
theorem pay5_apply (v3 : Vec Ideal S1024x64 .bf16) (v4 : Vec Ideal S64x2048 .f32) (v8 : Vec Ideal S1024x1 .f32)
    (r : Fin 1024) (j : Fin 2048) :
    k0_pay5 (F := Ideal) v3 v4 v8 (ix2 r j)
      = max ((∑ k : Fin 64, v3 (ix2 r k) * v4 (ix2 k j)) - v8 (ix2 r 0)) 0 := by
  unfold k0_pay5
  simp only [shapeCast_self, matmul]
  rw [maximumf_apply, subf_apply, broadcast_apply, broadcastTo_a1_ab_apply, tileDot_apply]
  simp only [truncf_apply]
  exact congrArg (max _) Ideal.ofBits_zero_f32

/-- The column number at (r, j) of tile `i 1`: 2048 times the tile plus j. -/
theorem pay6_apply (i : grid0.Coords) (r : Fin 1024) (j : Fin 2048) :
    k0_pay6 i (ix2 r j) = BitVec.ofNat 32 (2048 * (i 1).val + j.val) := by
  unfold k0_pay6
  show IntOp.addi (IntOp.muli (BitVec.ofNat 32 (i 1).val) 2048#32)
    (iota .tc S1024x2048 32 [1] iota_S1024x2048_d1_w32 (ix2 r j)) = _
  rw [iota_single_apply]
  show BitVec.ofNat 32 (i 1).val * BitVec.ofNat 32 2048 + BitVec.ofNat 32 j.val = _
  rw [BitVec.ofNat_mul_ofNat, BitVec.ofNat_add_ofNat, Nat.mul_comm]

/-- The label mask at (r, j): the column is not row r's label. -/
theorem pay7_apply (i : grid0.Coords) (v17 : Vec Ideal S1024x1 .i32) (r : Fin 1024) (j : Fin 2048) :
    k0_pay7 (F := Ideal) i v17 (ix2 r j)
      = if BitVec.ofNat 32 (2048 * (i 1).val + j.val) ≠ v17 (ix2 r 0) then 1#1 else 0#1 := by
  unfold k0_pay7
  simp only [shapeCast_self]
  show IntOp.cmpi .ne (k0_pay6 i (ix2 r j)) (broadcastTo S1024x2048 v17 broadcasts_S1024x1_S1024x2048 (ix2 r j)) = _
  rw [pay6_apply, broadcastTo_a1_ab_apply, cmpi_ne_eq]

/-! ## The accumulator's step: the tile's masked hinges summed over its 2048 columns, added to what the row holds -/

/-- The step on every tile but the last: each column but the row's label adds its hinge. -/
theorem pay9_apply (i : grid0.Coords) (v3 : Vec Ideal S1024x64 .bf16) (v4 : Vec Ideal S64x2048 .f32)
    (v8 : Vec Ideal S1024x1 .f32) (v17 : Vec Ideal S1024x1 .i32) (v29 : Vec Ideal S1024x1 .f32) (r : Fin 1024) :
    k0_pay9 (F := Ideal) i v3 v4 v8 v17 v29 (ix2 r 0)
      = v29 (ix2 r 0) + ∑ j : Fin 2048,
          (if BitVec.ofNat 32 (2048 * (i 1).val + j.val) ≠ v17 (ix2 r 0)
            then max ((∑ k : Fin 64, v3 (ix2 r k) * v4 (ix2 k j)) - v8 (ix2 r 0)) 0 else 0) := by
  unfold k0_pay9
  simp only [shapeCast_self]
  rw [addf_apply, shapeCast_a_a1_apply, laneSum_apply]
  refine congrArg (v29 (ix2 r 0) + ·) (Finset.sum_congr rfl fun j _ => ?_)
  rw [select_apply, pay7_apply, pay5_apply, broadcast_apply, select_bit, zeroWord]

/-- The step on the last tile: the columns past the 20000 classes add nothing either. -/
theorem pay8_apply (i : grid0.Coords) (v3 : Vec Ideal S1024x64 .bf16) (v4 : Vec Ideal S64x2048 .f32)
    (v8 : Vec Ideal S1024x1 .f32) (v17 : Vec Ideal S1024x1 .i32) (v32 : Vec Ideal S1024x1 .f32) (r : Fin 1024) :
    k0_pay8 (F := Ideal) i v3 v4 v8 v17 v32 (ix2 r 0)
      = v32 (ix2 r 0) + ∑ j : Fin 2048,
          (if BitVec.ofNat 32 (2048 * (i 1).val + j.val) ≠ v17 (ix2 r 0) ∧ 2048 * (i 1).val + j.val < 20000
            then max ((∑ k : Fin 64, v3 (ix2 r k) * v4 (ix2 k j)) - v8 (ix2 r 0)) 0 else 0) := by
  have hi : (i 1).val < 10 := (i 1).isLt
  unfold k0_pay8
  simp only [shapeCast_self]
  rw [addf_apply, shapeCast_a_a1_apply, laneSum_apply]
  refine congrArg (v32 (ix2 r 0) + ·) (Finset.sum_congr rfl fun j _ => ?_)
  rw [select_apply]
  show Scalar.select (IntOp.andi (k0_pay7 (F := Ideal) i v17 (ix2 r j)) (IntOp.cmpi .slt (k0_pay6 i (ix2 r j)) 20000#32)) _ _ = _
  rw [pay7_apply, pay6_apply, cmpi_slt_20000 _ (by have := j.isLt; omega), andi_bits, pay5_apply, broadcast_apply, select_bit, zeroWord]

/-- On the first nine tiles every column is a class (2048 · 8 + 2047 < 20000), so the step there has the last tile's
    form too: one statement of the step for every tile. -/
theorem pay9_apply_masked (i : grid0.Coords) (hi : (i 1).val < 9) (v3 : Vec Ideal S1024x64 .bf16) (v4 : Vec Ideal S64x2048 .f32)
    (v8 : Vec Ideal S1024x1 .f32) (v17 : Vec Ideal S1024x1 .i32) (v29 : Vec Ideal S1024x1 .f32) (r : Fin 1024) :
    k0_pay9 (F := Ideal) i v3 v4 v8 v17 v29 (ix2 r 0)
      = v29 (ix2 r 0) + ∑ j : Fin 2048,
          (if BitVec.ofNat 32 (2048 * (i 1).val + j.val) ≠ v17 (ix2 r 0) ∧ 2048 * (i 1).val + j.val < 20000
            then max ((∑ k : Fin 64, v3 (ix2 r k) * v4 (ix2 k j)) - v8 (ix2 r 0)) 0 else 0) := by
  rw [pay9_apply]
  refine congrArg (v29 (ix2 r 0) + ·) (Finset.sum_congr rfl fun j _ => ?_)
  exact if_congr ⟨fun h => ⟨h, by have := j.isLt; omega⟩, fun h => h.1⟩ rfl rfl

end Cert.KernelIdeal.Pay
end
-- ==== Proof.KernelIdeal.Steps.lean ====
/-
  One grid point of the kernel as a step of the specification: with the point's blocks holding the rows
  1024 * (n / 10) ... of the arrays and column tile n % 10 of the padded transposed class rows, the first tile's
  two scratch stores are the projected rows and the thresholds, and every tile's output store is the accumulator
  after one more tile (`accK`): what the buffer held plus this tile's masked hinge sum.
-/
import proofs.«168488_j18743237280105_2_alg».proof.Proof.Spec
import proofs.«168488_j18743237280105_2_alg».proof.Proof.KernelIdeal.PayloadsTile

noncomputable section

open Idealize.ShloMosaic Idealize.ShloMosaic.ValueIdx
open scoped BigOperators

namespace Cert.KernelIdeal.Step

open Cert.KernelIdeal Cert.KernelIdeal.Gen Cert.KernelIdeal.Pay Cert.Devise

/-- Row `r` of the row block that grid position `n` works on. -/
def row (n : ℕ) (r : Fin 1024) : Fin 4096 := ⟨(1024 * (n / 10) + r.val) % 4096, Nat.mod_lt _ (by norm_num)⟩

theorem row_val (n : ℕ) (hn : n < 40) (r : Fin 1024) : (row n r).val = 1024 * (n / 10) + r.val := by
  have := r.isLt
  show (1024 * (n / 10) + r.val) % 4096 = _
  exact Nat.mod_eq_of_lt (by omega)

/-- The tile of grid position `n`. -/
def tile (n : ℕ) : Fin 10 := ⟨n % 10, Nat.mod_lt _ (by norm_num)⟩

variable (X : SX.Idx → EReal) (y : SY.Idx → BitVec 32) (E : SE.Idx → EReal) (W : SW.Idx → EReal)

theorem accK_succ (b : Fin 4096) (k : ℕ) (h : k < 10) :
    accK X y E W b (k + 1) = accK X y E W b k + tileK X y E W b ⟨k, h⟩ := by
  show accK X y E W b k + (if h : k < 10 then tileK X y E W b ⟨k, h⟩ else 0) = _
  rw [dif_pos h]

/-- The projected rows: the first scratch store of a first tile. -/
theorem payP_eq (n : ℕ) (x0 : Vec Ideal S1024x1024 .f32) (x1 : Vec Ideal S1024x64 .f32)
    (h0 : ∀ r d, x0 (ix2 r d) = X (ix2 (row n r) d)) (h1 : ∀ d k, x1 (ix2 d k) = W (ix2 d k)) :
    k0_pay2 (F := Ideal) x0 x1 = fun idx => proj X W (row n (idx 0)) (idx 1) := by
  funext idx
  obtain ⟨r, k, rfl⟩ : ∃ (r : Fin 1024) (k : Fin 64), idx = ix2 r k := ⟨idx 0, idx 1, eq_ix2 idx⟩
  rw [pay2_apply]
  show _ = ∑ d : Fin 1024, X (ix2 (row n r) d) * W (ix2 d k)
  exact Finset.sum_congr rfl fun d _ => by rw [h0, h1]

/-- The thresholds: the second scratch store of a first tile. -/
theorem payT_eq (n : ℕ) (x0 : Vec Ideal S1024x1024 .f32) (x1 : Vec Ideal S1024x64 .f32) (x2 : Vec Ideal S1024x64 .f32)
    (h0 : ∀ r d, x0 (ix2 r d) = X (ix2 (row n r) d)) (h1 : ∀ d k, x1 (ix2 d k) = W (ix2 d k))
    (h2 : ∀ r k, x2 (ix2 r k) = E (ix2 (label y (row n r)) k)) :
    k0_pay3 (F := Ideal) x0 x1 x2 = fun idx => threshK X y E W (row n (idx 0)) := by
  funext idx
  obtain ⟨r, q, rfl⟩ : ∃ (r : Fin 1024) (q : Fin 1), idx = ix2 r q := ⟨idx 0, idx 1, eq_ix2 idx⟩
  obtain rfl : q = 0 := Subsingleton.elim _ _
  rw [pay3_apply]
  show _ = (∑ k : Fin 64, (∑ d : Fin 1024, X (ix2 (row n r) d) * W (ix2 d k)) * E (ix2 (label y (row n r)) k)) - margin
  congr 1
  refine Finset.sum_congr rfl fun k _ => ?_
  rw [h2]
  congr 1
  exact Finset.sum_congr rfl fun d _ => by rw [h0, h1]

open Classical in
/-- A tile other than the last: the output store is the accumulator after one more tile. -/
theorem pay9_step (n : ℕ) (h9 : n % 10 ≠ 9) (i : grid0.Coords) (hi : (i 1).val = n % 10)
    (v3 : Vec Ideal S1024x64 .bf16) (v4 : Vec Ideal S64x2048 .f32) (v8 : Vec Ideal S1024x1 .f32)
    (v17 : Vec Ideal S1024x1 .i32) (v29 : Vec Ideal S1024x1 .f32)
    (h3 : ∀ r k, v3 (ix2 r k) = proj X W (row n r) k)
    (h4 : ∀ k j, v4 (ix2 k j) = padE E (colOf (tile n) j) k)
    (h8 : ∀ r, v8 (ix2 r 0) = threshK X y E W (row n r))
    (h17 : ∀ r, v17 (ix2 r 0) = y (ix1 (row n r)))
    (h29 : ∀ r, v29 (ix2 r 0) = accK X y E W (row n r) (n % 10)) :
    k0_pay9 (F := Ideal) i v3 v4 v8 v17 v29 = fun idx => accK X y E W (row n (idx 0)) (n % 10 + 1) := by
  funext idx
  obtain ⟨r, q, rfl⟩ : ∃ (r : Fin 1024) (q : Fin 1), idx = ix2 r q := ⟨idx 0, idx 1, eq_ix2 idx⟩
  obtain rfl : q = 0 := Subsingleton.elim _ _
  have hlt : n % 10 < 10 := Nat.mod_lt _ (by norm_num)
  rw [pay9_apply]
  show _ = accK X y E W (row n r) (n % 10 + 1)
  rw [accK_succ X y E W _ _ hlt, h29]
  refine congrArg (fun z => accK X y E W (row n r) (n % 10) + z) ?_
  unfold tileK
  refine Finset.sum_congr rfl fun j _ => ?_
  have hj := j.isLt
  refine if_congr ?_ ?_ rfl
  · rw [hi, h17]
    constructor
    · intro h; exact ⟨h, by show 2048 * (n % 10) + j.val < 20000; omega⟩
    · intro h; exact h.1
  · rw [h8]
    refine congrArg (fun z => max (z - threshK X y E W (row n r)) 0) ?_
    unfold simsK
    exact Finset.sum_congr rfl fun k _ => by rw [h3, h4]; rfl

open Classical in
/-- The last tile, whose padded columns are masked as well. -/
theorem pay8_step (n : ℕ) (h9 : n % 10 = 9) (i : grid0.Coords) (hi : (i 1).val = n % 10)
    (v3 : Vec Ideal S1024x64 .bf16) (v4 : Vec Ideal S64x2048 .f32) (v8 : Vec Ideal S1024x1 .f32)
    (v17 : Vec Ideal S1024x1 .i32) (v29 : Vec Ideal S1024x1 .f32)
    (h3 : ∀ r k, v3 (ix2 r k) = proj X W (row n r) k)
    (h4 : ∀ k j, v4 (ix2 k j) = padE E (colOf (tile n) j) k)
    (h8 : ∀ r, v8 (ix2 r 0) = threshK X y E W (row n r))
    (h17 : ∀ r, v17 (ix2 r 0) = y (ix1 (row n r)))
    (h29 : ∀ r, v29 (ix2 r 0) = accK X y E W (row n r) (n % 10)) :
    k0_pay8 (F := Ideal) i v3 v4 v8 v17 v29 = fun idx => accK X y E W (row n (idx 0)) (n % 10 + 1) := by
  funext idx
  obtain ⟨r, q, rfl⟩ : ∃ (r : Fin 1024) (q : Fin 1), idx = ix2 r q := ⟨idx 0, idx 1, eq_ix2 idx⟩
  obtain rfl : q = 0 := Subsingleton.elim _ _
  have hlt : n % 10 < 10 := Nat.mod_lt _ (by norm_num)
  rw [pay8_apply]
  show _ = accK X y E W (row n r) (n % 10 + 1)
  rw [accK_succ X y E W _ _ hlt, h29]
  refine congrArg (fun z => accK X y E W (row n r) (n % 10) + z) ?_
  unfold tileK
  refine Finset.sum_congr rfl fun j _ => ?_
  refine if_congr ?_ ?_ rfl
  · rw [hi, h17]
    exact Iff.rfl
  · rw [h8]
    refine congrArg (fun z => max (z - threshK X y E W (row n r)) 0) ?_
    unfold simsK
    exact Finset.sum_congr rfl fun k _ => by rw [h3, h4]; rfl

end Cert.KernelIdeal.Step

end
-- ==== Proof.KernelIdeal.Blocks.lean ====
/-
  The blocks the region's windows read and write, at an index.

  The grid is 4 x 10: point t has row block t / 10 and column tile t % 10.  A window's block at point t is
  the rectangle of its array that starts, on each axis, at (block index) x (block size); so an element of
  the block at coordinates (r, d) is the array's element at (block index x size + r, ...).  The block
  indices are read off the printed index maps once, by evaluation over the forty points:
    windows 0, 2, 4 and the output window 5 move with the row block (rows 1024 (t / 10) + r),
    window 1 is the whole array at every point,
    window 3 moves with the column tile (columns 2048 (t % 10) + j).
  The output window is written back at the last column tile of each row block (t % 10 = 9), and those
  four points' blocks cover the 4096 rows.
-/
import proofs.«168488_j18743237280105_2_alg».proof.Proof.Gen.KernelIdeal.Frame
import Idealize.ShloMosaic.Lib.ValueIdx
import Idealize.ShloMosaic.Lib.Pipeline.Value

noncomputable section

namespace Cert.KernelIdeal.Blk

open Cert.KernelIdeal Cert.KernelIdeal.Gen Idealize.ShloMosaic Idealize.ShloMosaic.ValueIdx
open Idealize.ShloMosaic.TcCoe Idealize.SL.Sem

variable {F : FTy → Type} [FloatOps F]
variable (m : (ℓ : Loc nD τ sig) → Buf (Elt F) ℓ) (c : Dev nD)

/-! ## The grid -/

/-- The grid has forty points. -/
theorem lt40 (t : Fin cfg0.N) : t.val < 40 := Nat.lt_of_lt_of_eq t.isLt N_0

/-- Row `r` of point `t`'s row block, as a row of the 4096. -/
def rowOf (t : Fin cfg0.N) (r : Fin 1024) : Fin 4096 :=
  ⟨1024 * (t.val / 10) + r.val, by have := lt40 t; have := r.isLt; omega⟩

/-- Column `j` of point `t`'s column tile, as a column of the 20480. -/
def colOfT (t : Fin cfg0.N) (j : Fin 2048) : Fin 20480 :=
  ⟨2048 * (t.val % 10) + j.val, by have := j.isLt; omega⟩

/-- Point `t`'s coordinates: row block `t / 10`, column tile `t % 10`. -/
theorem coords_val : ∀ t : Fin cfg0.N, (grid0.coords t 0).val = t.val / 10 ∧ (grid0.coords t 1).val = t.val % 10 :=
  (by decide +kernel : ∀ t : Fin grid0.N, (grid0.coords t 0).val = t.val / 10 ∧ (grid0.coords t 1).val = t.val % 10)

/-! ## The block indices, read off the index maps over the forty points -/

theorem idx0 : ∀ t : Fin cfg0.N, win0_0.index t (0 : Fin 2) = t.val / 10 ∧ win0_0.index t (1 : Fin 2) = 0 :=
  (by decide +kernel : ∀ t : Fin grid0.N, win0_0.index t (0 : Fin 2) = t.val / 10 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = t.val / 10 ∧ win0_2.index t (1 : Fin 2) = 0 :=
  (by decide +kernel : ∀ t : Fin grid0.N, win0_2.index t (0 : Fin 2) = t.val / 10 ∧ win0_2.index t (1 : Fin 2) = 0)
theorem idx3 : ∀ t : Fin cfg0.N, win0_3.index t (0 : Fin 2) = 0 ∧ win0_3.index t (1 : Fin 2) = t.val % 10 :=
  (by decide +kernel : ∀ t : Fin grid0.N, win0_3.index t (0 : Fin 2) = 0 ∧ win0_3.index t (1 : Fin 2) = t.val % 10)
theorem idx4 : ∀ t : Fin cfg0.N, win0_4.index t (0 : Fin 2) = t.val / 10 ∧ win0_4.index t (1 : Fin 2) = 0 :=
  (by decide +kernel : ∀ t : Fin grid0.N, win0_4.index t (0 : Fin 2) = t.val / 10 ∧ win0_4.index t (1 : Fin 2) = 0)
theorem idx5 : ∀ t : Fin cfg0.N, win0_5.index t (0 : Fin 2) = t.val / 10 ∧ win0_5.index t (1 : Fin 2) = 0 :=
  (by decide +kernel : ∀ t : Fin grid0.N, win0_5.index t (0 : Fin 2) = t.val / 10 ∧ win0_5.index t (1 : Fin 2) = 0)

/-! ## The input windows' blocks at an index -/

/-- Window 0: rows `1024 (t / 10) + r` of the first argument, all 1024 columns. -/
theorem iblk0_apply (t : Fin cfg0.N) (r : Fin 1024) (d : Fin 1024) :
    (iblk m c 0 t : Vec F S1024x1024 .f32) (ix2 r d) = V m c main_arg0 (ix2 (rowOf t r) d) := by
  obtain ⟨e0, e1⟩ := idx0 t
  unfold iblk
  rw [View.read_apply]
  show V m c main_arg0 _ = V m c main_arg0 _
  congr 1
  funext a
  apply Fin.ext
  match a with
  | ⟨0, _⟩ => show win0_0.index t (0 : Fin 2) * 1024 + 1 * r.val = 1024 * (t.val / 10) + r.val; rw [e0]; omega
  | ⟨1, _⟩ => show win0_0.index t (1 : Fin 2) * 1024 + 1 * d.val = d.val; rw [e1]; omega

/-- Window 1: the whole fourth argument at every point. -/
theorem iblk1_apply (t : Fin cfg0.N) (d : Fin 1024) (k : Fin 64) :
    (iblk m c 1 t : Vec F S1024x64 .f32) (ix2 d k) = V m c main_arg3 (ix2 d k) := by
  obtain ⟨e0, e1⟩ := idx1 t
  unfold iblk
  rw [View.read_apply]
  show V m c main_arg3 _ = V m c main_arg3 _
  congr 1
  funext a
  apply Fin.ext
  match a with
  | ⟨0, _⟩ => show win0_1.index t (0 : Fin 2) * 1024 + 1 * d.val = d.val; rw [e0]; omega
  | ⟨1, _⟩ => show win0_1.index t (1 : Fin 2) * 64 + 1 * k.val = k.val; rw [e1]; omega

/-- Window 2: rows `1024 (t / 10) + r` of the gathered label rows. -/
theorem iblk2_apply (t : Fin cfg0.N) (r : Fin 1024) (k : Fin 64) :
    (iblk m c 2 t : Vec F S1024x64 .f32) (ix2 r k) = V m c main_v2 (ix2 (rowOf t r) k) := by
  obtain ⟨e0, e1⟩ := idx2 t
  unfold iblk
  rw [View.read_apply]
  show V m c main_v2 _ = V m c main_v2 _
  congr 1
  funext a
  apply Fin.ext
  match a with
  | ⟨0, _⟩ => show win0_2.index t (0 : Fin 2) * 1024 + 1 * r.val = 1024 * (t.val / 10) + r.val; rw [e0]; omega
  | ⟨1, _⟩ => show win0_2.index t (1 : Fin 2) * 64 + 1 * k.val = k.val; rw [e1]; omega

/-- Window 3: columns `2048 (t % 10) + j` of the transposed, padded class rows. -/
theorem iblk3_apply (t : Fin cfg0.N) (k : Fin 64) (j : Fin 2048) :
    (iblk m c 3 t : Vec F S64x2048 .f32) (ix2 k j) = V m c main_v1 (ix2 k (colOfT t j)) := by
  obtain ⟨e0, e1⟩ := idx3 t
  unfold iblk
  rw [View.read_apply]
  show V m c main_v1 _ = V m c main_v1 _
  congr 1
  funext a
  apply Fin.ext
  match a with
  | ⟨0, _⟩ => show win0_3.index t (0 : Fin 2) * 64 + 1 * k.val = k.val; rw [e0]; omega
  | ⟨1, _⟩ => show win0_3.index t (1 : Fin 2) * 2048 + 1 * j.val = 2048 * (t.val % 10) + j.val; rw [e1]; omega

/-- Window 4: rows `1024 (t / 10) + r` of the label column. -/
theorem iblk4_apply (t : Fin cfg0.N) (r : Fin 1024) :
    (iblk m c 4 t : Vec F S1024x1 .i32) (ix2 r (0 : Fin 1)) = V m c main_v3 (ix2 (rowOf t r) (0 : Fin 1)) := by
  obtain ⟨e0, e1⟩ := idx4 t
  unfold iblk
  rw [View.read_apply]
  show V m c main_v3 _ = V m c main_v3 _
  congr 1
  funext a
  apply Fin.ext
  match a with
  | ⟨0, _⟩ => show win0_4.index t (0 : Fin 2) * 1024 + 1 * r.val = 1024 * (t.val / 10) + r.val; rw [e0]; omega
  | ⟨1, _⟩ => show win0_4.index t (1 : Fin 2) * 1 + 1 * 0 = 0; rw [e1]

/-! ## The output window -/

/-- An array of the output's shape read through the output window's block at point `t`:
    rows `1024 (t / 10) + r`. -/
theorem out5_read (G : Buf (Elt F) ((c : Thread nD τ).loc main_v4)) (t : Fin cfg0.N) (r : Fin 1024) :
    ((cfg0.win 5).blk t).view.read (Elt F) G (ix2 r (0 : Fin 1)) = G (ix2 (rowOf t r) (0 : Fin 1)) := by
  obtain ⟨e0, e1⟩ := idx5 t
  rw [View.read_apply]
  show G _ = G _
  congr 1
  funext a
  apply Fin.ext
  match a with
  | ⟨0, _⟩ => show win0_5.index t (0 : Fin 2) * 1024 + 1 * r.val = 1024 * (t.val / 10) + r.val; rw [e0]; omega
  | ⟨1, _⟩ => show win0_5.index t (1 : Fin 2) * 1 + 1 * 0 = 0; rw [e1]

/-- An index of the output array lies in point `t`'s block when its row lies in `t`'s row block. -/
theorem mem5 (t : Fin cfg0.N) (i : S4096x1.Idx)
    (h : 1024 * (t.val / 10) ≤ (i 0).val ∧ (i 0).val < 1024 * (t.val / 10) + 1024) :
    i ∈ ((View.whole main_v4).slice (win0_5.rect t)).set := by
  obtain ⟨e0, e1⟩ := idx5 t
  rw [View.set_slice_whole, Rect.mem_set_unit]
  intro a
  match a with
  | ⟨0, _⟩ =>
    show win0_5.index t (0 : Fin 2) * 1024 ≤ (i 0 : Nat) ∧ (i 0 : Nat) < win0_5.index t (0 : Fin 2) * 1024 + 1024
    rw [e0]; omega
  | ⟨1, _⟩ =>
    show win0_5.index t (1 : Fin 2) * 1 ≤ (i 1 : Nat) ∧ (i 1 : Nat) < win0_5.index t (1 : Fin 2) * 1 + 1
    have h1 : (i 1 : Nat) < 1 := (i 1).isLt
    rw [e1]; omega

/-- Every index of the output array is in the block of a point that writes back: the last column tile
    of its row block. -/
theorem cover5 : ∀ i : S4096x1.Idx, ∃ t : Fin cfg0.N, (cfg0.win 5).flush t = true
    ∧ i ∈ ((View.whole main_v4).slice (win0_5.rect t)).set := by
  intro i
  have hi : (i 0 : Nat) < 4096 := (i 0).isLt
  have hN : cfg0.N = 40 := N_0
  have hlt : 10 * ((i 0).val / 1024) + 9 < cfg0.N := by rw [hN]; omega
  refine ⟨⟨10 * ((i 0).val / 1024) + 9, hlt⟩, (flush0_5 _).mpr ?_, mem5 _ i ?_⟩
  · show (10 * ((i 0).val / 1024) + 9) % 10 = 9
    omega
  · show 1024 * ((10 * ((i 0).val / 1024) + 9) / 10) ≤ (i 0).val
      ∧ (i 0).val < 1024 * ((10 * ((i 0).val / 1024) + 9) / 10) + 1024
    omega

end Cert.KernelIdeal.Blk

end
-- ==== Proof.KernelIdeal.HostSide.lean ====
/-
  The host operations around the kernel's one region, read on the extended reals.
  Before the region: the class rows padded with zero rows to 20480 and transposed (the array the region reads its class
  tiles from), the rows of the class table taken at the labels (a label in [0, 20000) is its own row: the wrap of a
  negative index, the in-bounds mask and the clamp of the gather all leave it alone), and the labels as one column.
  After the region: the per-sample column summed onto zero and divided by 4096, the mean both programs end with.
-/
import proofs.«168488_j18743237280105_2_alg».proof.Proof.Gen.KernelIdeal.Frame
import proofs.«168488_j18743237280105_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

set_option maxRecDepth 16384

noncomputable section

namespace Cert.KernelIdeal.Host

open Idealize.ShloMosaic Idealize.ShloMosaic.TcCoe Idealize.ShloMosaic.ValueIdx
open Idealize.ShloMosaic.StableHlo
open Idealize.ShloMosaic.Pipeline (Dat)
open Cert.KernelIdeal Cert.KernelIdeal.Gen
open scoped BigOperators

variable (m : (ℓ : Loc nD τ sig) → Buf (Elt Ideal) ℓ) (c : Dev nD)

/-- The four argument arrays as launched. -/
abbrev X : S4096x1024.Idx → EReal := m ((c : Thread nD τ).loc main_arg0)
abbrev y : S4096.Idx → BitVec 32 := m ((c : Thread nD τ).loc main_arg1)
abbrev E : S20000x64.Idx → EReal := m ((c : Thread nD τ).loc main_arg2)
abbrev W : S1024x64.Idx → EReal := m ((c : Thread nD τ).loc main_arg3)

/-! ## The labels as one column -/

/-- The label column the region reads is the label vector reshaped from [4096] to [4096, 1]. -/
theorem V_y32_eq : (V m c main_v3 : S4096x1.Idx → BitVec 32) = shapeCast S4096x1 (y m c) shapeCasts_S4096_S4096x1 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- Row `b` of the label column is sample `b`'s label: both sit at row-major position `b`. -/
theorem V_y32 (b : Fin 4096) : (V m c main_v3 : S4096x1.Idx → BitVec 32) (ix2 b 0) = y m c (ix1 b) := by
  rw [V_y32_eq]
  exact shapeCast_apply _ _ _ _ (by
    rw [Shape.rowMajor_val_two, Shape.rowMajor_val_one]
    show b.val = b.val * 1 + 0
    omega)

/-! ## The class rows, padded and transposed -/

/-- The array the region reads its class tiles from: the class rows padded below with 480 rows of the converted integer
    zero, then transposed. -/
theorem V_labelsT_eq : (V m c main_v1 : S64x20480.Idx → EReal)
    = transpose S64x20480 [1, 0]
        (pad S20480x64 ![0, 0] ![480, 0] ![0, 0] (E m c) (sitofp (F := Ideal) .f32 (constantI S_ 32 0#32))
          pads_S20000x64_S20480x64_04800_000 h_S_) transposes_S20480x64_S64x20480_1_0 := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The integer zero converted to a float is the extended real zero. -/
theorem sitofp_zero_word : (FloatOps.sitofp (F := Ideal) .f32 (0#32) : EReal) = 0 := by
  show ((((0#32 : BitVec 32).toInt : ℤ) : ℝ) : EReal) = 0
  simp

/-- Entry `(k, col)` of that array is entry `k` of class row `col`, and zero from column 20000 on. -/
theorem V_labelsT (k : Fin 64) (col : Fin 20480) :
    (V m c main_v1 : S64x20480.Idx → EReal) (ix2 k col) = Cert.Devise.padE (E m c) col k := by
  rw [V_labelsT_eq, transpose_ix2_apply]
  unfold Cert.Devise.padE
  by_cases h : col.val < 20000
  · rw [dif_pos h]
    refine pad_apply_of_inside _ _ _ _ _ _ _ _ (ix2 ⟨col.val, h⟩ k) (fun a => ?_)
    match a with
    | ⟨0, _⟩ => show col.val = 0 + col.val * (0 + 1); omega
    | ⟨1, _⟩ => show k.val = 0 + k.val * (0 + 1); omega
  · rw [dif_neg h]
    refine (pad_apply_of_not_inside _ _ _ _ _ _ _ _ (⟨0, by decide⟩ : Fin 2) ?_).trans ?_
    · show ¬ (0 ≤ col.val ∧ (col.val - 0) % (0 + 1) = 0 ∧ (col.val - 0) / (0 + 1) < 20000)
      omega
    · show FloatOps.sitofp (F := Ideal) .f32 (0#32) = (0 : EReal)
      exact sitofp_zero_word

/-! ## The mean after the region -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A scalar reshaped to one entry reads the scalar. -/
theorem shapeCast_scalar_apply (f : S_.Idx → EReal) (j : S1.Idx) : shapeCast S1 f shapeCasts_S_S1 j = f ix0 := by
  unfold shapeCast
  exact congrArg f (eq_ix0 _)

/-- The operations after the region applied to a [4096, 1] column `A`: the column as a vector, summed onto the zero
    constant, divided by the constant 4096, as one entry — the mean of the column's entries as the specification
    writes it. -/
theorem tail_apply (A : S4096x1.Idx → EReal) (i : S1.Idx) :
    shapeCast S1
        (Host.divf
          (Host.reduceAdd (shapeCast S4096 A shapeCasts_S4096x1_S4096) (constant (F := Ideal) S_ .f32 0x00000000#32)
            reducesTo_S4096_S_d0 h_S_)
          (constant (F := Ideal) S_ .f32 0x45800000#32)) shapeCasts_S_S1 i
      = Cert.Devise.lossOf (fun b => A (ix2 b 0)) := by
  rw [shapeCast_scalar_apply]
  unfold Cert.Devise.lossOf
  show Ideal.div (Ideal.hostReduceAdd reducesTo_S4096_S_d0 (shapeCast S4096 A shapeCasts_S4096x1_S4096)
      (Ideal.ofBits .f32 0x00000000#32) ix0) (Ideal.ofBits .f32 0x45800000#32) = _
  rw [Ideal.hostReduceAdd_total reducesTo_S4096_S_d0 (fun b => b.elim0), sum_idx1]
  congr 2
  refine Finset.sum_congr rfl fun b _ => ?_
  exact shapeCast_apply _ _ _ (ix2 b 0) (by
    rw [Shape.rowMajor_val_two, Shape.rowMajor_val_one]
    show b.val * 1 + 0 = b.val
    omega)

/-- THE TAIL: whatever the region leaves in its output column, the program's result is the mean of that column. -/
theorem tail_eq (dats : (p : Fin 1) → (c : Dev nD) → Dat τ (Elt Ideal) Unit ℕ (UR sig nD τ) ℕ (cfgs p) c) :
    Pipeline.afterTail₀ cfgs dats 0 (V0 m) [hostOps1] c main_v8
      = fun _ => Cert.Devise.lossOf (fun b => ((dats 0 c).arrAt 5 cfg0.N : S4096x1.Idx → EReal) (ix2 b 0)) := by
  unfold Pipeline.afterTail₀
  show StableHlo.after hostOps1 _ (Proc.devRef .tc main_v8) = _
  after_results
  have hA : Pipeline.withArrays (cfgs 0).spec c (V0 m c) (fun w => (dats 0 c).arrAt w (cfgs 0).N) (Proc.devRef .tc main_v4)
      = (dats 0 c).arrAt 5 cfg0.N := Pipeline.withArrays_arr spec0 launch0.win.arr_inj c _ _ 5
  rw [hA]
  funext i
  exact tail_apply ((dats 0 c).arrAt 5 cfg0.N) i

/-! ## The class rows taken at the labels -/

/-- The label words with a negative one wrapped once around the 20000 classes. -/
abbrev wrapped (y : S4096.Idx → BitVec 32) : IVec S4096 32 :=
  select (cmpi .slt y (broadcastInDim S4096 ![] bcast_S_S4096 (constantI S_ 32 0#32)))
    (addi y (broadcastInDim S4096 ![] bcast_S_S4096 (constantI S_ 32 20000#32))) y
/-- The same as one column: the start indices of the gather. -/
abbrev startCol (y : S4096.Idx → BitVec 32) : IVec S4096x1 32 :=
  broadcastInDim S4096x1 ![0] bcast_S4096_S4096x1_0 (wrapped y)
/-- The in-bounds mask: 0 ≤ index ≤ 19999. -/
abbrev inBounds (y : S4096.Idx → BitVec 32) : IVec S4096x1 1 :=
  andi (cmpi .sge (startCol y) (broadcastInDim S4096x1 ![] bcast_S_S4096x1 (constantI S_ 32 0#32)))
    (cmpi .sle (startCol y) (broadcastInDim S4096x1 ![0, 1] bcast_S1x1_S4096x1_0_1
      (broadcastInDim S1x1 ![1] bcast_S1_S1x1_1 (constantI S1 32 19999#32))))
/-- The mask reduced by `and` over its unit axis. -/
abbrev rowOk (y : S4096.Idx → BitVec 32) : IVec S4096 1 :=
  Host.reduce IntOp.andi (inBounds y) (constantI S_ 1 1#1) reducesTo_S4096x1_S4096_d1 h_S_
/-- The taken rows: the gathered row where the mask holds, the fill word elsewhere. -/
abbrev taken (E : S20000x64.Idx → EReal) (y : S4096.Idx → BitVec 32) : S4096x64.Idx → EReal :=
  select (broadcastInDim S4096x64 ![0] bcast_S4096_S4096x64_0 (rowOk y))
    (Host.gather gather_S20000x64_S4096x1_S4096x64_1_0_n_n_0_1_164 E (startCol y))
    (broadcastInDim S4096x64 ![] bcast_S_S4096x64 (constant (F := Ideal) S_ .f32 0x7FC00000#32))

set_option maxHeartbeats 1000000 in
/-- The array of label rows the region reads is the class table taken at the labels. -/
theorem V_gathered_eq : (V m c main_v2 : S4096x64.Idx → EReal) = taken (E m c) (y m c) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results_simp
  rfl

/-- The column shape with its unit axis dropped is the vector shape. -/
theorem reduces_col : S4096x1.Reduces [1] S4096 := by decide

section Taken
variable (Ev : S20000x64.Idx → EReal) (yv : S4096.Idx → BitVec 32)

/-- A word below 20000 reads the same signed and unsigned. -/
theorem toInt_of_lt {w : BitVec 32} (hw : w.toNat < 20000) : w.toInt = (w.toNat : ℤ) := by
  rw [BitVec.toInt_eq_toNat_cond]
  split
  · rfl
  · omega

/-- A label below 20000 is not negative, so the wrap leaves it alone. -/
theorem wrapped_apply (b : Fin 4096) (hb : (yv (ix1 b)).toNat < 20000) : wrapped yv (ix1 b) = yv (ix1 b) := by
  show Scalar.select (IntOp.cmpi .slt (yv (ix1 b)) 0#32) (IntOp.addi (yv (ix1 b)) 20000#32) (yv (ix1 b)) = yv (ix1 b)
  have h0 : IntOp.cmpi .slt (yv (ix1 b)) 0#32 = 0#1 := eq_zero_of_ne_one fun h => by
    have := IntOp.cmpi_slt.mp h
    rw [toInt_of_lt hb] at this
    have h00 : (0#32 : BitVec 32).toInt = 0 := by decide
    omega
  rw [h0, select_zero]

/-- Row `b` of the start-index column is sample `b`'s wrapped label. -/
theorem startCol_apply (b : Fin 4096) : startCol yv (ix2 b 0) = wrapped yv (ix1 b) :=
  broadcastInDim_apply _ _ _ _ (ix1 b) fun a => match a with | ⟨0, _⟩ => rfl

/-- At a label below 20000 the in-bounds mask holds. -/
theorem inBounds_apply (b : Fin 4096) (hb : (yv (ix1 b)).toNat < 20000) : inBounds yv (ix2 b 0) = 1#1 := by
  show IntOp.andi (IntOp.cmpi .sge (startCol yv (ix2 b 0)) 0#32) (IntOp.cmpi .sle (startCol yv (ix2 b 0)) 19999#32) = 1#1
  rw [startCol_apply, wrapped_apply yv b hb]
  have h00 : (0#32 : BitVec 32).toInt = 0 := by decide
  have h19 : (19999#32 : BitVec 32).toInt = 19999 := by decide
  have h1 : IntOp.cmpi .sge (yv (ix1 b)) 0#32 = 1#1 := IntOp.cmpi_sge.mpr (by rw [toInt_of_lt hb, h00]; omega)
  have h2 : IntOp.cmpi .sle (yv (ix1 b)) 19999#32 = 1#1 := IntOp.cmpi_sle.mpr (by rw [toInt_of_lt hb, h19]; omega)
  rw [h1, h2]
  rfl

/-- An `and` of one-bit words, from 1, over entries that are all 1 is 1. -/
theorem fold_andi_eq_one {ι : Type} (s : Finset ι) (f : ι → BitVec 1) (h : ∀ i ∈ s, f i = 1#1) :
    s.fold IntOp.andi 1#1 f = 1#1 := by
  classical
  induction s using Finset.induction_on with
  | empty => rfl
  | insert a s ha ih =>
    rw [Finset.fold_insert ha, h a (Finset.mem_insert_self a s), ih fun i hi => h i (Finset.mem_insert_of_mem hi)]
    rfl

/-- The mask's `and` over its unit axis, from the constant 1, is 1 where the mask's one entry of the row is. -/
theorem rowOk_apply (b : Fin 4096) (hb : (yv (ix1 b)).toNat < 20000) : rowOk yv (ix1 b) = 1#1 := by
  show Host.reduce IntOp.andi (inBounds yv) (constantI S_ 1 1#1) reducesTo_S4096x1_S4096_d1 h_S_ (ix1 b) = 1#1
  rw [Host.reduce_eq_fold_single IntOp.andi (inBounds yv) _ reducesTo_S4096x1_S4096_d1 reduces_col h_S_]
  refine fold_andi_eq_one _ _ fun k _ => ?_
  have e : reduces_col.lift (ix1 b) k = ix2 b 0 := by
    funext a
    match a with
    | ⟨0, _⟩ => rfl
    | ⟨1, _⟩ =>
      refine Fin.ext ?_
      have hk : k.val < 1 := k.isLt
      show k.val = 0
      omega
  show inBounds yv (reduces_col.lift (ix1 b) k) = 1#1
  rw [e, inBounds_apply yv b hb]

end Taken

section Gather
variable (Ev : S20000x64.Idx → EReal)

/-- The gather of whole rows read at `(b, k)`: entry `k` of the row named by start index `b`, read signed and clamped
    into [0, 19999]. -/
theorem gather_rows_apply (idx : IVec S4096x1 32) (b : Fin 4096) (k : Fin 64) :
    Host.gather gather_S20000x64_S4096x1_S4096x64_1_0_n_n_0_1_164 Ev idx (ix2 b k)
      = Ev (ix2 ⟨min (idx (ix2 b 0)).toInt.toNat 19999, by omega⟩ k) := by
  unfold Host.gather
  congr 1
  funext a
  refine Fin.ext ?_
  match a with
  | ⟨0, _⟩ =>
    show gather_S20000x64_S4096x1_S4096x64_1_0_n_n_0_1_164.start (ix2 b k) idx 0
        + gather_S20000x64_S4096x1_S4096x64_1_0_n_n_0_1_164.batchCoord (ix2 b k) 0
        + gather_S20000x64_S4096x1_S4096x64_1_0_n_n_0_1_164.offCoord (ix2 b k) 0 = min (idx (ix2 b 0)).toInt.toNat 19999
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S20000x64_S4096x1_S4096x64_1_0_n_n_0_1_164.startIndexMap from
      List.mem_singleton.mpr rfl)]
    have hsi : gather_S20000x64_S4096x1_S4096x64_1_0_n_n_0_1_164.siIdx (ix2 b k)
        ⟨List.idxOf (0 : Fin 2) gather_S20000x64_S4096x1_S4096x64_1_0_n_n_0_1_164.startIndexMap,
          List.idxOf_lt_length_iff.2 (List.mem_singleton.mpr rfl)⟩ = ix2 b 0 := by
      funext d; refine Fin.ext ?_
      match d with
      | ⟨0, _⟩ => rfl
      | ⟨1, _⟩ => rfl
    rw [hsi]
    rfl
  | ⟨1, _⟩ =>
    show gather_S20000x64_S4096x1_S4096x64_1_0_n_n_0_1_164.start (ix2 b k) idx 1
        + gather_S20000x64_S4096x1_S4096x64_1_0_n_n_0_1_164.batchCoord (ix2 b k) 1
        + gather_S20000x64_S4096x1_S4096x64_1_0_n_n_0_1_164.offCoord (ix2 b k) 1 = k.val
    rw [GatherDims.batchCoord_eq_zero _ _ _ List.not_mem_nil]
    have hs : gather_S20000x64_S4096x1_S4096x64_1_0_n_n_0_1_164.start (ix2 b k) idx 1 = 0 := by
      unfold GatherDims.start
      rw [dif_neg (show (1 : Fin 2) ∉ gather_S20000x64_S4096x1_S4096x64_1_0_n_n_0_1_164.startIndexMap from by decide)]
    have ho : gather_S20000x64_S4096x1_S4096x64_1_0_n_n_0_1_164.offCoord (ix2 b k) 1 = k.val := by
      unfold GatherDims.offCoord
      rw [dif_pos (show (1 : Fin 2) ∈ gather_S20000x64_S4096x1_S4096x64_1_0_n_n_0_1_164.sKept from by decide)]
      rfl
    rw [hs, ho]
    omega

end Gather

/-- THE TAKEN ROWS: with every label in [0, 20000), row `b` of the array the region reads is the class row of sample
    `b`'s label. -/
theorem V_gathered (hy : ∀ b : Fin 4096, (y m c (ix1 b)).toNat < 20000) (b : Fin 4096) (k : Fin 64) :
    (V m c main_v2 : S4096x64.Idx → EReal) (ix2 b k) = E m c (ix2 (Cert.Devise.label (y m c) b) k) := by
  rw [V_gathered_eq]
  show Scalar.select (broadcastInDim S4096x64 ![0] bcast_S4096_S4096x64_0 (rowOk (y m c)) (ix2 b k))
    (Host.gather gather_S20000x64_S4096x1_S4096x64_1_0_n_n_0_1_164 (E m c) (startCol (y m c)) (ix2 b k)) _ = _
  rw [broadcastInDim_apply _ _ (rowOk (y m c)) (ix2 b k) (ix1 b) (fun a => match a with | ⟨0, _⟩ => rfl),
    rowOk_apply (y m c) b (hy b), select_one, gather_rows_apply]
  congr 1
  funext a
  match a with
  | ⟨0, _⟩ =>
    refine Fin.ext ?_
    show min (startCol (y m c) (ix2 b 0)).toInt.toNat 19999 = (y m c (ix1 b)).toNat % 20000
    rw [startCol_apply, wrapped_apply (y m c) b (hy b), toInt_of_lt (hy b), Int.toNat_natCast, Nat.mod_eq_of_lt (hy b)]
    have := hy b
    omega
  | ⟨1, _⟩ => rfl

end Cert.KernelIdeal.Host

end
-- ==== Proof.Bridge.lean ====
/-
  The kernel's arrangement of the per-sample loss equals the reference's, once every input is an
  ordinary real and every label word is a class.

  Three steps.  (1) Sums and products of ordinary reals are ordinary reals, so every similarity is one,
  and for ordinary reals  s - (t - m) = (m + s) - t  (false at the infinities, hence the detour through
  real witnesses).  (2) Adding the ten tiles one after the other onto zero is the sum over the tiles,
  and the ten tiles of 2048 columns enumerate the 20480 padded columns once each.  (3) The 480 padded
  columns are masked, and on a real column the mask "the column's word is not the label word" says
  exactly that the column is not the label's class, because the label word is below 20000.
-/
import proofs.«168488_j18743237280105_2_alg».proof.Proof.Spec
import Mathlib.Data.EReal.Operations
import Mathlib.Algebra.BigOperators.Fin
import Mathlib.Logic.Equiv.Fin.Basic

noncomputable section

open Idealize.ShloMosaic Idealize.ShloMosaic.ValueIdx
open scoped BigOperators

namespace Cert.Devise

/-! ## Ordinary reals inside the extended reals -/

/-- The extended real `a` is an ordinary real. -/
def IsReal (a : EReal) : Prop := ∃ r : ℝ, a = (r : EReal)

theorem IsReal.zero : IsReal 0 := ⟨0, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of ordinary reals is an ordinary real. -/
theorem IsReal.sum {ι : Type*} (s : Finset ι) (f : ι → EReal) :
    (∀ i ∈ s, IsReal (f i)) → IsReal (∑ i ∈ s, f i) := by
  classical
  refine Finset.induction_on s ?_ ?_
  · intro _
    rw [Finset.sum_empty]
    exact IsReal.zero
  · intro a s ha ih h
    rw [Finset.sum_insert ha]
    exact (h a (Finset.mem_insert_self a s)).add (ih fun i hi => h i (Finset.mem_insert_of_mem hi))

theorem IsReal.sum_univ {ι : Type*} [Fintype ι] (f : ι → EReal) (h : ∀ i, IsReal (f i)) :
    IsReal (∑ i, f i) :=
  IsReal.sum _ f fun i _ => h i

/-- The margin is an ordinary real (a normal single-precision pattern). -/
theorem margin_isReal : IsReal margin := by
  unfold IsReal margin
  simp [Ideal.ofBits, Ideal.ieee, -EReal.coe_mul]

/-- For ordinary reals the two arrangements of the hinge's argument agree. -/
theorem hinge_arg_eq {s t m : EReal} (hs : IsReal s) (ht : IsReal t) (hm : IsReal m) :
    s - (t - m) = (m + s) - t := by
  obtain ⟨s, rfl⟩ := hs
  obtain ⟨t, rfl⟩ := ht
  obtain ⟨m, rfl⟩ := hm
  rw [← EReal.coe_sub, ← EReal.coe_sub, ← EReal.coe_add, ← EReal.coe_sub]
  congr 1
  ring

variable (X : SX.Idx → EReal) (y : SY.Idx → BitVec 32) (E : SE.Idx → EReal) (W : SW.Idx → EReal)

theorem proj_isReal (hX : ∀ i, IsReal (X i)) (hW : ∀ i, IsReal (W i)) (b : Fin 4096) (k : Fin 64) :
    IsReal (proj X W b k) :=
  IsReal.sum_univ _ fun _ => (hX _).mul (hW _)

theorem sims_isReal (hX : ∀ i, IsReal (X i)) (hE : ∀ i, IsReal (E i)) (hW : ∀ i, IsReal (W i))
    (b : Fin 4096) (c : Fin 20000) : IsReal (sims X E W b c) :=
  IsReal.sum_univ _ fun k => (proj_isReal X W hX hW b k).mul (hE _)

/-! ## The tiles, one after the other, are one sum over the padded columns -/

/-- The accumulator after `n` tiles is the sum of the first `n` tiles. -/
theorem accK_eq_range (b : Fin 4096) (n : ℕ) :
    accK X y E W b n
      = ∑ i ∈ Finset.range n, (if h : i < 10 then tileK X y E W b ⟨i, h⟩ else 0) := by
  induction n with
  | zero => rw [Finset.sum_range_zero]; rfl
  | succ n ih => rw [Finset.sum_range_succ, ← ih]; rfl

theorem accK_ten (b : Fin 4096) : accK X y E W b 10 = ∑ t : Fin 10, tileK X y E W b t := by
  rw [accK_eq_range, Finset.sum_range]
  exact Finset.sum_congr rfl fun t _ => dif_pos t.isLt

open Classical in
/-- The masked hinge at one padded column. -/
def hingeK (b : Fin 4096) (col : Fin 20480) : EReal :=
  if keep y b col then max (simsK X E W b col - threshK X y E W b) 0 else 0

/-- Ten tiles of 2048 columns are the 20480 padded columns, each once. -/
theorem tiles_eq_sum (b : Fin 4096) :
    ∑ t : Fin 10, tileK X y E W b t = ∑ col : Fin 20480, hingeK X y E W b col := by
  show ∑ t : Fin 10, ∑ j : Fin 2048, hingeK X y E W b (colOf t j) = _
  rw [← Fintype.sum_prod_type']
  refine Fintype.sum_equiv (finProdFinEquiv (m := 10) (n := 2048)) _ _ fun p => ?_
  congr 1
  apply Fin.ext
  show 2048 * p.1.val + p.2.val = p.2.val + 2048 * p.1.val
  exact Nat.add_comm _ _

/-! ## The mask -/

/-- A padded column is masked. -/
theorem hingeK_pad (b : Fin 4096) (i : Fin 480) : hingeK X y E W b (Fin.natAdd 20000 i) = 0 := by
  unfold hingeK
  refine if_neg fun h => ?_
  have h2 : 20000 + i.val < 20000 := h.2
  omega

/-- On a real column the kernel's masked hinge is the reference's summand. -/
theorem hingeK_real (hX : ∀ i, IsReal (X i)) (hE : ∀ i, IsReal (E i)) (hW : ∀ i, IsReal (W i))
    (b : Fin 4096) (hy : (y (ix1 b)).toNat < 20000) (c : Fin 20000) :
    hingeK X y E W b (Fin.castAdd 480 c)
      = if c = label y b then 0
        else max ((margin + sims X E W b c) - sims X E W b (label y b)) 0 := by
  have hs : simsK X E W b (Fin.castAdd 480 c) = sims X E W b c := by
    unfold simsK sims
    refine Finset.sum_congr rfl fun k _ => ?_
    congr 1
    unfold padE
    exact dif_pos c.isLt
  have ht : threshK X y E W b = sims X E W b (label y b) - margin := rfl
  have hk : keep y b (Fin.castAdd 480 c) ↔ c ≠ label y b := by
    unfold keep
    have hv : (Fin.castAdd 480 c).val = c.val := rfl
    rw [hv]
    constructor
    · rintro ⟨h1, _⟩ hc
      apply h1
      rw [hc]
      apply BitVec.eq_of_toNat_eq
      rw [BitVec.toNat_ofNat]
      show (y (ix1 b)).toNat % 20000 % 2 ^ 32 = _
      rw [Nat.mod_eq_of_lt hy, Nat.mod_eq_of_lt (by omega)]
    · intro hc
      refine ⟨fun h => hc ?_, c.isLt⟩
      apply Fin.ext
      show c.val = (y (ix1 b)).toNat % 20000
      have hc' : c.val < 2 ^ 32 := by have := c.isLt; omega
      rw [Nat.mod_eq_of_lt hy, ← h, BitVec.toNat_ofNat, Nat.mod_eq_of_lt hc']
  unfold hingeK
  by_cases hc : c = label y b
  · rw [if_neg (fun h => (hk.1 h) hc), if_pos hc]
  · rw [if_pos (hk.2 hc), if_neg hc, hs, ht,
      hinge_arg_eq (sims_isReal X E W hX hE hW b c) (sims_isReal X E W hX hE hW b (label y b))
        margin_isReal]

/-! ## The two arrangements agree -/

theorem accK_eq_perSample (hX : ∀ i, ∃ r : ℝ, X i = (r : EReal)) (hE : ∀ i, ∃ r : ℝ, E i = r)
    (hW : ∀ i, ∃ r : ℝ, W i = r) (hy : ∀ b : Fin 4096, (y (ValueIdx.ix1 b)).toNat < 20000)
    (b : Fin 4096) : accK X y E W b 10 = perSample X y E W b := by
  rw [accK_ten, tiles_eq_sum]
  show ∑ col : Fin (20000 + 480), hingeK X y E W b col = _
  rw [Fin.sum_univ_add, Finset.sum_eq_zero (fun i _ => hingeK_pad X y E W b i), add_zero]
  exact Finset.sum_congr rfl fun c _ => hingeK_real X y E W hX hE hW b (hy b) c

end Cert.Devise

end
-- ==== Proof.KernelIdeal.Value.lean ====
/-
  What the idealized kernel computes, read off its frame run: after every grid point the output buffer holds the
  accumulator after that point's tile and the scratch holds the row block's projected rows and thresholds (by
  induction on the point, each case one step of the specification); the last tile of each row block is written
  back, so the result column is the accumulator after all ten tiles, which is the reference's per-sample loss;
  the host lines after the region take its mean.
-/
import proofs.«168488_j18743237280105_2_alg».proof.Proof.KernelIdeal.CaseValues
import proofs.«168488_j18743237280105_2_alg».proof.Proof.KernelIdeal.Steps
import proofs.«168488_j18743237280105_2_alg».proof.Proof.KernelIdeal.Blocks
import proofs.«168488_j18743237280105_2_alg».proof.Proof.KernelIdeal.HostSide
import proofs.«168488_j18743237280105_2_alg».proof.Proof.Bridge

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Step Cert.KernelIdeal.Pay Cert.Devise

variable (m : (ℓ : Loc nD τ sig) → Buf (Elt Ideal) ℓ) (ρ : Dev nD → PrngReg)

abbrev aX (c : Dev nD) : SX.Idx → EReal := m ((c : Thread nD τ).loc main_arg0)
abbrev ay (c : Dev nD) : SY.Idx → BitVec 32 := m ((c : Thread nD τ).loc main_arg1)
abbrev aE (c : Dev nD) : SE.Idx → EReal := m ((c : Thread nD τ).loc main_arg2)
abbrev aW (c : Dev nD) : SW.Idx → EReal := m ((c : Thread nD τ).loc main_arg3)

/-- What the output buffer and the two scratch buffers hold after position `n`. -/
def expOuts (c : Dev nD) (n : ℕ) : Outs Ideal :=
  (fun idx => accK (aX m c) (ay m c) (aE m c) (aW m c) (row n (idx 0)) (n % 10 + 1),
   fun idx => proj (aX m c) (aW m c) (row n (idx 0)) (idx 1),
   fun idx => threshK (aX m c) (ay m c) (aE m c) (aW m c) (row n (idx 0)))

theorem lt40 (t : Fin cfg0.N) : t.val < 40 := lt_of_lt_of_eq t.isLt (show cfg0.N = 40 from N_0)

/-! ## The blocks a point is handed -/

theorem hb0 (c : Dev nD) (t : Fin cfg0.N) (r : Fin 1024) (d : Fin 1024) :
    (iblk m c 0 t : Vec Ideal S1024x1024 .f32) (ix2 r d) = aX m c (ix2 (row t.val r) d) := by
  rw [Blk.iblk0_apply, V_main_arg0]
  exact congrArg (fun q => aX m c (ix2 q d)) (Fin.ext (row_val _ (lt40 t) r).symm)
theorem hb1 (c : Dev nD) (t : Fin cfg0.N) (d : Fin 1024) (k : Fin 64) :
    (iblk m c 1 t : Vec Ideal S1024x64 .f32) (ix2 d k) = aW m c (ix2 d k) := by
  rw [Blk.iblk1_apply, V_main_arg3]
theorem hb2 (hy : ∀ (c : Dev nD) (b : Fin 4096), (ay m c (ix1 b)).toNat < 20000) (c : Dev nD) (t : Fin cfg0.N) (r : Fin 1024) (k : Fin 64) :
    (iblk m c 2 t : Vec Ideal S1024x64 .f32) (ix2 r k) = aE m c (ix2 (label (ay m c) (row t.val r)) k) := by
  rw [Blk.iblk2_apply, Host.V_gathered m c (hy c)]
  exact congrArg (fun q => aE m c (ix2 (label (ay m c) q) k)) (Fin.ext (row_val _ (lt40 t) r).symm)
theorem hb3 (c : Dev nD) (t : Fin cfg0.N) (k : Fin 64) (j : Fin 2048) :
    (iblk m c 3 t : Vec Ideal S64x2048 .f32) (ix2 k j) = padE (aE m c) (colOf (tile t.val) j) k := by
  rw [Blk.iblk3_apply, Host.V_labelsT]
  exact congrArg (fun q => padE (aE m c) q k) (Fin.ext rfl)
theorem hb4 (c : Dev nD) (t : Fin cfg0.N) (r : Fin 1024) :
    (iblk m c 4 t : Vec Ideal S1024x1 .i32) (ix2 r 0) = ay m c (ix1 (row t.val r)) := by
  rw [Blk.iblk4_apply, Host.V_y32]
  exact congrArg (fun q => ay m c (ix1 q)) (Fin.ext (row_val _ (lt40 t) r).symm)

/-! ## Each case is one step -/

theorem stepA_eq (hy : ∀ (c : Dev nD) (b : Fin 4096), (ay m c (ix1 b)).toNat < 20000) (c : Dev nD) (t : Fin cfg0.N) (h0 : t.val % 10 = 0) :
    stepA m c t h0 = expOuts m c t.val := by
  unfold stepA
  rw [outA_eq, soutA0_eq, soutA1_eq]
  have eP := payP_eq (aX m c) (aW m c) t.val (iblk m c 0 t) (iblk m c 1 t) (hb0 m c t) (hb1 m c t)
  have eT := payT_eq (aX m c) (ay m c) (aE m c) (aW m c) t.val (iblk m c 0 t) (iblk m c 1 t) (iblk m c 2 t) (hb0 m c t) (hb1 m c t) (hb2 m hy c t)
  refine Prod.ext ?_ (Prod.ext eP eT)
  show k0_pay9 (grid0.coords t) (k0_pay2 (iblk m c 0 t) (iblk m c 1 t)) (iblk m c 3 t) (k0_pay3 (iblk m c 0 t) (iblk m c 1 t) (iblk m c 2 t)) (iblk m c 4 t) (k0_pay4 (F := Ideal)) = _
  rw [eP, eT]
  refine pay9_step (aX m c) (ay m c) (aE m c) (aW m c) t.val (by omega) (grid0.coords t) (Blk.coords_val t).2 _ (iblk m c 3 t) _ (iblk m c 4 t) _
    (fun r k => rfl) (hb3 m c t) (fun r => rfl) (hb4 m c t) (fun r => ?_)
  rw [pay4_apply, h0]
  rfl

theorem row_pred (n : ℕ) (h0 : ¬ (n + 1) % 10 = 0) (r : Fin 1024) : row n r = row (n + 1) r := by
  apply Fin.ext
  show (1024 * (n / 10) + r.val) % 4096 = (1024 * ((n + 1) / 10) + r.val) % 4096
  have : n / 10 = (n + 1) / 10 := by omega
  rw [this]

theorem stepB_eq (c : Dev nD) (n : ℕ) (h : n + 1 < cfg0.N) (h0 : ¬ (n + 1) % 10 = 0) (h9 : ¬ (n + 1) % 10 = 9) :
    stepB m c ⟨n + 1, h⟩ h0 h9 (expOuts m c n) = expOuts m c (n + 1) := by
  unfold stepB
  rw [outB_eq]
  refine Prod.ext ?_ (Prod.ext ?_ ?_)
  · refine pay9_step (aX m c) (ay m c) (aE m c) (aW m c) (n + 1) h9 (grid0.coords ⟨n + 1, h⟩) (Blk.coords_val ⟨n + 1, h⟩).2 _ (iblk m c 3 ⟨n + 1, h⟩) _ (iblk m c 4 ⟨n + 1, h⟩) _
      (fun r k => ?_) (hb3 m c ⟨n + 1, h⟩) (fun r => ?_) (hb4 m c ⟨n + 1, h⟩) (fun r => ?_)
    · show proj (aX m c) (aW m c) (row n r) k = _
      rw [row_pred n h0]
    · show threshK (aX m c) (ay m c) (aE m c) (aW m c) (row n r) = _
      rw [row_pred n h0]
    · show accK (aX m c) (ay m c) (aE m c) (aW m c) (row n r) (n % 10 + 1) = _
      rw [row_pred n h0, show n % 10 + 1 = (n + 1) % 10 from by omega]
  · funext idx
    obtain ⟨r, k, rfl⟩ : ∃ (r : Fin 1024) (k : Fin 64), idx = ix2 r k := ⟨idx 0, idx 1, eq_ix2 idx⟩
    show proj (aX m c) (aW m c) (row n r) k = proj (aX m c) (aW m c) (row (n + 1) r) k
    rw [row_pred n h0]
  · funext idx
    obtain ⟨r, q, rfl⟩ : ∃ (r : Fin 1024) (q : Fin 1), idx = ix2 r q := ⟨idx 0, idx 1, eq_ix2 idx⟩
    show threshK (aX m c) (ay m c) (aE m c) (aW m c) (row n r) = threshK (aX m c) (ay m c) (aE m c) (aW m c) (row (n + 1) r)
    rw [row_pred n h0]

theorem stepC_eq (c : Dev nD) (n : ℕ) (h : n + 1 < cfg0.N) (h9 : (n + 1) % 10 = 9) :
    stepC m c ⟨n + 1, h⟩ h9 (expOuts m c n) = expOuts m c (n + 1) := by
  have h0 : ¬ (n + 1) % 10 = 0 := by omega
  unfold stepC
  rw [outC_eq]
  refine Prod.ext ?_ (Prod.ext ?_ ?_)
  · refine pay8_step (aX m c) (ay m c) (aE m c) (aW m c) (n + 1) h9 (grid0.coords ⟨n + 1, h⟩) (Blk.coords_val ⟨n + 1, h⟩).2 _ (iblk m c 3 ⟨n + 1, h⟩) _ (iblk m c 4 ⟨n + 1, h⟩) _
      (fun r k => ?_) (hb3 m c ⟨n + 1, h⟩) (fun r => ?_) (hb4 m c ⟨n + 1, h⟩) (fun r => ?_)
    · show proj (aX m c) (aW m c) (row n r) k = _
      rw [row_pred n h0]
    · show threshK (aX m c) (ay m c) (aE m c) (aW m c) (row n r) = _
      rw [row_pred n h0]
    · show accK (aX m c) (ay m c) (aE m c) (aW m c) (row n r) (n % 10 + 1) = _
      rw [row_pred n h0, show n % 10 + 1 = (n + 1) % 10 from by omega]
  · funext idx
    obtain ⟨r, k, rfl⟩ : ∃ (r : Fin 1024) (k : Fin 64), idx = ix2 r k := ⟨idx 0, idx 1, eq_ix2 idx⟩
    show proj (aX m c) (aW m c) (row n r) k = proj (aX m c) (aW m c) (row (n + 1) r) k
    rw [row_pred n h0]
  · funext idx
    obtain ⟨r, q, rfl⟩ : ∃ (r : Fin 1024) (q : Fin 1), idx = ix2 r q := ⟨idx 0, idx 1, eq_ix2 idx⟩
    show threshK (aX m c) (ay m c) (aE m c) (aW m c) (row n r) = threshK (aX m c) (ay m c) (aE m c) (aW m c) (row (n + 1) r)
    rw [row_pred n h0]

/-- After every point the buffers hold the specification's state: by induction on the point. -/
theorem outsAt_eq (hy : ∀ (c : Dev nD) (b : Fin 4096), (ay m c (ix1 b)).toNat < 20000) (c : Dev nD) :
    ∀ (n : ℕ) (h : n < cfg0.N), outsAt m c n h = expOuts m c n
  | 0, h => (outsAt_A m c ⟨0, h⟩ rfl).trans (stepA_eq m hy c ⟨0, h⟩ rfl)
  | n + 1, h => by
    by_cases h0 : (n + 1) % 10 = 0
    · exact (outsAt_A m c ⟨n + 1, h⟩ h0).trans (stepA_eq m hy c ⟨n + 1, h⟩ h0)
    · by_cases h9 : (n + 1) % 10 = 9
      · rw [outsAt_C m c ⟨n + 1, h⟩ h9]
        show stepC m c ⟨n + 1, h⟩ h9 (outsAt m c n _) = _
        rw [outsAt_eq hy c n]
        exact stepC_eq m c n h h9
      · rw [outsAt_B m c ⟨n + 1, h⟩ h0 h9]
        show stepB m c ⟨n + 1, h⟩ h0 h9 (outsAt m c n _) = _
        rw [outsAt_eq hy c n]
        exact stepB_eq m c n h h0 h9

/-! ## The result column -/

/-- The accumulator after all ten tiles, per sample. -/
abbrev colG (c : Dev nD) : Buf (Elt Ideal) ((c : Thread nD τ).loc main_v4) :=
  fun idx => accK (aX m c) (ay m c) (aE m c) (aW m c) (idx 0) 10

theorem flushed_eq (hy : ∀ (c : Dev nD) (b : Fin 4096), (ay m c (ix1 b)).toNat < 20000) (c : Dev nD) (t : Fin cfg0.N) (hf : (cfg0.win 5).flush t = true) :
    (dats m 0 c).flushed 5 t = ((cfg0.win 5).blk t).view.read (Elt Ideal) (colG m c) := by
  have h9 : t.val % 10 = 9 := (flush0_5 t).mp hf
  show (cfg0.win 5).cut (grid0.coords t) ((dats m 0 c).after 5 t) = _
  rw [after5, outsAt_eq m hy c t.val t.isLt]
  funext j
  obtain ⟨r, q, rfl⟩ : ∃ (r : Fin 1024) (q : Fin 1), j = ix2 r q := ⟨j 0, j 1, eq_ix2 j⟩
  obtain rfl : q = 0 := Subsingleton.elim _ _
  rw [Blk.out5_read]
  show accK (aX m c) (ay m c) (aE m c) (aW m c) (row t.val r) (t.val % 10 + 1) = accK (aX m c) (ay m c) (aE m c) (aW m c) _ 10
  rw [h9]
  exact congrArg (fun q => accK (aX m c) (ay m c) (aE m c) (aW m c) q 10) (Fin.ext (row_val _ (lt40 t) r))

theorem final5 (hy : ∀ (c : Dev nD) (b : Fin 4096), (ay m c (ix1 b)).toNat < 20000) (c : Dev nD) :
    (dats m 0 c).arrAt 5 cfg0.N = colG m c :=
  (dats m 0 c).arrAt_eq_of_cover 5 (colG m c) (flushed_eq m hy c) fun i => by
    obtain ⟨t, hf, hm⟩ := Blk.cover5 i
    exact ⟨t, hf, hm⟩

/-- The program's run with its result named: the mean of the reference's per-sample losses. -/
theorem run_value
    (hX : ∀ c i, ∃ r : ℝ, aX m c i = (r : EReal)) (hE : ∀ c i, ∃ r : ℝ, aE m c i = (r : EReal)) (hW : ∀ c i, ∃ r : ℝ, aW m c i = (r : EReal))
    (hy : ∀ (c : Dev nD) (b : Fin 4096), (ay m c (ix1 b)).toNat < 20000) :
    θ_run defs (onTc (τ := τ) (main (F := Ideal))) ⟨m, fun _ => 0, ρ⟩ (fun r => ∀ c : Dev nD,
      r.2.mem ((c.tc : Thread nD τ).loc main_v8) = (fun _ => lossOf (perSample (aX m c) (ay m c) (aE m c) (aW m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v8 (Pipeline.mem_restRefs_of main_v8 (by decide) (by decide))).trans (by
        rw [Host.tail_eq m c (dats m), final5 m hy c]
        funext _
        exact congrArg lossOf (funext fun b => accK_eq_perSample (aX m c) (ay m c) (aE m c) (aW m c) (hX c) (hE c) (hW c) (hy c) b)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 1).trans (((dats m 0 c).arrAt_in 1 rfl _).trans ((A_eq m c 1).trans (V_main_arg3 m c)))⟩)
    (run_main m ρ)

end Cert.KernelIdeal.Hand

end
-- ==== Proof.RefSide.lean ====
/-
  The reference side. The reference program's result, read one stage at a time on the extended reals, is the mean
  over the samples of the per-sample margin-hinge sums of Spec.lean (`lossOf (perSample X y E W)`), when every label
  word lies in [0, 20000).

  The stages: the two matrix products are the bilinear similarity `sims`; the label's column is read through an index
  wrap (a negative word plus 20000), a bounds mask (0 ≤ word ≤ 19999, an out-of-bounds read replaced by a NaN) and a
  gather that clamps its start index — under the hypothesis the wrap keeps the word, the mask is all ones and the clamp
  keeps the word, so the gathered element is `sims b (label y b)`; the comparison of the column counter with the label
  word is the test `c = label y b`; the row sum onto the zero word is `perSample b`; the sum over the samples onto the
  zero word divided by 4096 is `lossOf`.
-/
import proofs.«168488_j18743237280105_2_alg».proof.Proof.Gen.ReferenceIdeal.Run
import proofs.«168488_j18743237280105_2_alg».proof.Proof.Gen.ReferenceIdeal.Read
import proofs.«168488_j18743237280105_2_alg».proof.Proof.Spec
import Idealize.ShloMosaic.PureOps.Reduce

noncomputable section

namespace Cert.Devise.Ref

open Idealize.ShloMosaic Idealize.ShloMosaic.ValueIdx
open Cert.ReferenceIdeal Cert.ReferenceIdeal.Gen Cert.ReferenceIdeal.Read
open scoped BigOperators

/-! ## Words -/

/-- A word below 20000 read unsigned reads the same signed. -/
theorem toInt_of_lt {w : BitVec 32} (h : w.toNat < 20000) : w.toInt = (w.toNat : Int) :=
  BitVec.toInt_eq_toNat_of_lt (by omega)

/-- Such a word is not negative … -/
theorem cmpi_slt_zero {w : BitVec 32} (h : w.toNat < 20000) : IntOp.cmpi .slt w 0#32 = 0#1 := by
  have hw := toInt_of_lt h
  have : w.slt 0#32 = false := by
    rw [Bool.eq_false_iff, Ne, BitVec.slt_iff_toInt_lt, hw]; simp
  simp only [IntOp.cmpi, this]; rfl

/-- … it is at least 0 … -/
theorem cmpi_sge_zero {w : BitVec 32} (h : w.toNat < 20000) : IntOp.cmpi .sge w 0#32 = 1#1 := by
  have hw := toInt_of_lt h
  have : (0#32 : BitVec 32).sle w = true := by
    rw [BitVec.sle_iff_toInt_le, hw]; simp
  simp only [IntOp.cmpi, this]; rfl

/-- … and at most 19999. -/
theorem cmpi_sle_max {w : BitVec 32} (h : w.toNat < 20000) : IntOp.cmpi .sle w 19999#32 = 1#1 := by
  have hw := toInt_of_lt h
  have h2 : (19999#32 : BitVec 32).toInt = 19999 := by decide
  have : w.sle 19999#32 = true := by
    rw [BitVec.sle_iff_toInt_le, hw, h2]; omega
  simp only [IntOp.cmpi, this]; rfl

/-- The column counter `c` differs from a word exactly when `c` is not the word's unsigned value. -/
theorem cmpi_ne_iota {w : BitVec 32} (c : Nat) (hc : c < 20000) :
    IntOp.cmpi .ne (BitVec.ofNat 32 c) w = if c = w.toNat then 0#1 else 1#1 := by
  have hiff : BitVec.ofNat 32 c = w ↔ c = w.toNat := by
    constructor
    · intro e; rw [← e, BitVec.toNat_ofNat]; omega
    · intro e; apply BitVec.eq_of_toNat_eq; rw [BitVec.toNat_ofNat, e]; exact Nat.mod_eq_of_lt w.isLt
  by_cases e : c = w.toNat
  · rw [if_pos e]
    have h0 : (BitVec.ofNat 32 c != w) = false := by rw [hiff.2 e]; simp
    show BitVec.ofBool (BitVec.ofNat 32 c != w) = 0#1
    rw [h0]; rfl
  · rw [if_neg e]
    have h1 : (BitVec.ofNat 32 c != w) = true := by rw [bne_iff_ne]; exact fun h => e (hiff.1 h)
    show BitVec.ofBool (BitVec.ofNat 32 c != w) = 1#1
    rw [h1]; rfl

/-! ## The index mask's reduction and the gather, read at an index -/

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (f a) = 1#1 := by rw [h a (List.mem_cons_self ..)]; decide
    rw [List.foldl_cons, e]
    exact foldl_andi_one f l (fun n hn => h n (List.mem_cons_of_mem _ hn))

/-- A reduction by `and` from 1 of an array of ones is 1 at every index. -/
theorem reduce_andi_one {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  exact foldl_andi_one x _ (fun n _ => hx n)

/-- The gather's dimension numbers: row `b` of the operand, the column its start index names. -/
abbrev gd := gather_S4096x20000_S4096x1x1_S4096x1_n_1_0_0_1_2_11

/-- The gather read at `j`: the operand at row `j 0` and the column the start index at `(j 0, j 1, 0)` names, read signed
    and clamped into [0, 19999]. -/
theorem gather_apply {α : Type} (x : S4096x20000.Idx → α) (idx : IVec S4096x1x1 32) (j : S4096x1.Idx) :
    Host.gather gd x idx j
      = x (ix2 (n0 := 4096) (n1 := 20000) ⟨(j 0).val, idx2_lt0 j⟩
          ⟨min (idx (ix3 (n0 := 4096) (n1 := 1) (n2 := 1) ⟨(j 0).val, idx2_lt0 j⟩ ⟨(j 1).val, idx2_lt1 j⟩
              ⟨0, Nat.one_pos⟩)).toInt.toNat 19999, by omega⟩) := by
  unfold Host.gather
  congr 1
  funext a
  refine Fin.ext ?_
  match a with
  | ⟨0, _⟩ =>
    show gd.start j idx 0 + gd.batchCoord j 0 + gd.offCoord j 0 = (j 0).val
    rw [gd.start_batching j idx 0 (List.mem_singleton.mpr rfl),
      gd.offCoord_eq_zero j 0 (fun h => ((gd.mem_sKept 0).mp h).2 (List.mem_singleton.mpr rfl))]
    simp only [Nat.zero_add, Nat.add_zero]
    unfold GatherDims.batchCoord
    rw [dif_pos (show (0 : Fin 2) ∈ gd.operandBatchingDims from List.mem_singleton.mpr rfl)]
    rfl
  | ⟨1, _⟩ =>
    show gd.start j idx 1 + gd.batchCoord j 1 + gd.offCoord j 1 = _
    rw [gd.batchCoord_eq_zero j 1 (by decide),
      gd.offCoord_eq_zero j 1 (fun h => ((gd.mem_sKept 1).mp h).1 (List.mem_singleton.mpr rfl))]
    simp only [Nat.add_zero]
    unfold GatherDims.start
    rw [dif_pos (show (1 : Fin 2) ∈ gd.startIndexMap from List.mem_singleton.mpr rfl)]
    have hsi : gd.siIdx j ⟨List.idxOf (1 : Fin 2) gd.startIndexMap,
        List.idxOf_lt_length_iff.2 (List.mem_singleton.mpr rfl)⟩
        = ix3 (n0 := 4096) (n1 := 1) (n2 := 1) ⟨(j 0).val, idx2_lt0 j⟩ ⟨(j 1).val, idx2_lt1 j⟩ ⟨0, Nat.one_pos⟩ := by
      funext b; refine Fin.ext ?_
      match b with
      | ⟨0, _⟩ => rfl
      | ⟨1, _⟩ => rfl
      | ⟨2, _⟩ => rfl
    rw [hsi]
    rfl

/-! ## Indices -/

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

variable (X : S4096x1024.Idx → EReal) (y : S4096.Idx → BitVec 32) (E : S20000x64.Idx → EReal)
  (W : S1024x64.Idx → EReal)

/-! ## The similarities -/

/-- The first product is `proj`. -/
theorem v0_eq (b : Fin 4096) (k : Fin 64) : val_main_v0 (F := Ideal) X W (ix2 b k) = proj X W b k := by
  rw [val_main_v0_apply]
  unfold proj
  refine Finset.sum_congr rfl fun d _ => ?_
  have e1 : lidx_main_v0 (ix2 b k) d = ix2 b d := by
    funext a; match a with | ⟨0, _⟩ => rfl | ⟨1, _⟩ => rfl
  have e2 : ridx_main_v0 (ix2 b k) d = ix2 d k := by
    funext a; match a with | ⟨0, _⟩ => rfl | ⟨1, _⟩ => rfl
  rw [e1, e2]

/-- The second product, against the transposed class rows, is `sims`. -/
theorem v2_eq (b : Fin 4096) (c : Fin 20000) : val_main_v2 (F := Ideal) X E W (ix2 b c) = sims X E W b c := by
  rw [val_main_v2_apply]
  unfold sims
  refine Finset.sum_congr rfl fun k _ => ?_
  have e1 : lidx_main_v2 (ix2 b c) k = ix2 b k := by
    funext a; match a with | ⟨0, _⟩ => rfl | ⟨1, _⟩ => rfl
  have e2 : ridx_main_v2 (ix2 b c) k = ix2 k c := by
    funext a; match a with | ⟨0, _⟩ => rfl | ⟨1, _⟩ => rfl
  have e3 : idx_main_v1 (ix2 k c) = ix2 c k := by
    funext a; match a with | ⟨0, _⟩ => rfl | ⟨1, _⟩ => rfl
  rw [e1, e2, v0_eq, val_main_v1_apply, e3]

/-! ## The label's column, read through the index wrap and the bounds mask -/

section Label
variable (hy : ∀ b : Fin 4096, (y (ix1 b)).toNat < 20000)

/-- The label words as a column. -/
theorem v3_eq (b : Fin 4096) (q : Fin 1) : val_main_v3 (F := Ideal) y (ix2 b q) = y (ix1 b) := by
  rw [val_main_v3_apply]
  congr 1
  funext a; match a with | ⟨0, _⟩ => rfl

include hy in
/-- The index wrap keeps a word that is not negative. -/
theorem call0_v4_eq (b : Fin 4096) (q : Fin 1) : val_main_call0_v4 (F := Ideal) y (ix2 b q) = y (ix1 b) := by
  rw [val_main_call0_v4_apply, val_main_call0_v1_apply, v3_eq, val_main_call0_v0_apply, val_main_call0_c_apply,
    cmpi_slt_zero (hy b), select_zero]

include hy in
/-- The start index at `(b, 0, 0)` is sample `b`'s label word. -/
theorem call0_v5_eq (b : Fin 4096) (p q : Fin 1) : val_main_call0_v5 (F := Ideal) y (ix3 b p q) = y (ix1 b) := by
  rw [val_main_call0_v5_apply]
  have e : idx_main_call0_v5 (ix3 b p q) = ix2 b 0 := by
    funext a
    match a with
    | ⟨0, _⟩ =>
      refine Fin.ext ?_
      show ((b.val * 1 + p.val) * 1 + q.val) / 1 = b.val
      have := p.isLt; have := q.isLt; omega
    | ⟨1, _⟩ => rfl
  rw [e, call0_v4_eq y hy]

include hy in
/-- The bounds mask is all ones … -/
theorem call0_v11_eq (i : S4096x1x1.Idx) : val_main_call0_v11 (F := Ideal) y i = 1#1 := by
  obtain ⟨b, p, q, rfl⟩ : ∃ (b : Fin 4096) (p q : Fin 1), i = ix3 b p q := ⟨i 0, i 1, i 2, eq_ix3 i⟩
  rw [val_main_call0_v11_apply, val_main_call0_v7_apply, val_main_call0_v10_apply, call0_v5_eq y hy,
    val_main_call0_v6_apply, val_main_call0_c_2_apply, val_main_call0_v9_apply, val_main_call0_v8_apply,
    val_main_call0_c_1_apply, cmpi_sge_zero (hy b), cmpi_sle_max (hy b)]
  decide

include hy in
/-- … and so is its reduction over the unit axis. -/
theorem call0_v12_eq (j : S4096x1.Idx) : val_main_call0_v12 (F := Ideal) y j = 1#1 := by
  unfold val_main_call0_v12
  exact reduce_andi_one _ _ _ _ (call0_v11_eq y hy) (fun _ => rfl) j

/-- The same at `(b, q)`, the column given as a class. -/
theorem gather_apply' {α : Type} (x : S4096x20000.Idx → α) (idx : IVec S4096x1x1 32) (b : Fin 4096) (q : Fin 1)
    (c : Fin 20000) (hc : c.val = min (idx (ix3 b q 0)).toInt.toNat 19999) :
    Host.gather gd x idx (ix2 b q) = x (ix2 b c) := by
  rw [gather_apply]
  congr 1
  funext a
  match a with
  | ⟨0, _⟩ => rfl
  | ⟨1, _⟩ => exact Fin.ext hc.symm

include hy in
/-- The gathered element is the similarity of sample `b` with its label. -/
theorem v4_eq (b : Fin 4096) (q : Fin 1) :
    val_main_v4 (F := Ideal) X y E W (ix2 b q) = sims X E W b (label y b) := by
  rw [val_main_v4_apply, call0_v12_eq y hy, select_one]
  unfold val_main_call0_v13
  rw [gather_apply' _ _ b q (label y b) ?_, v2_eq]
  rw [call0_v5_eq y hy, toInt_of_lt (hy b)]
  show (y (ix1 b)).toNat % 20000 = min ((y (ix1 b)).toNat : Int).toNat 19999
  have := hy b
  omega

/-! ## The masked hinge and its sums -/

include hy in
/-- The masked hinge at `(b, c)`: zero at the label's column, the hinge of margin + similarity − true similarity
    elsewhere. -/
theorem v16_eq (b : Fin 4096) (c : Fin 20000) :
    val_main_v16 (F := Ideal) X y E W (ix2 b c)
      = if c = label y b then 0 else max ((margin + sims X E W b c) - sims X E W b (label y b)) 0 := by
  have e13 : val_main_v13 (F := Ideal) (ix2 b c) = BitVec.ofNat 32 c.val := by
    rw [val_main_v13_apply, val_main_v11_apply, val_main_v10_apply]
  have e14 : val_main_v14 (F := Ideal) y (ix2 b c) = y (ix1 b) := by
    rw [val_main_v14_apply, val_main_v12_apply]
    congr 1; funext a; match a with | ⟨0, _⟩ => rfl
  have e7 : val_main_v7 (F := Ideal) X y E W (ix2 b c) = sims X E W b (label y b) := by
    rw [val_main_v7_apply]
    have e : idx_main_v7 (ix2 b c) = ix2 b 0 := by
      funext a; match a with | ⟨0, _⟩ => rfl | ⟨1, _⟩ => rfl
    rw [e, v4_eq X y E W hy]
  have hl : (label y b).val = (y (ix1 b)).toNat := Nat.mod_eq_of_lt (hy b)
  rw [val_main_v16_apply, val_main_v15_apply, e13, e14, cmpi_ne_iota c.val c.isLt]
  by_cases h : c = label y b
  · have h' : c.val = (y (ix1 b)).toNat := by rw [h, hl]
    rw [if_pos h', if_pos h, select_zero, val_main_call2_v1_apply, val_main_call2_v0_apply, val_main_cst_0_apply]
    exact Ideal.ofBits_zero_f32
  · have h' : ¬ c.val = (y (ix1 b)).toNat := fun e => h (Fin.ext (e.trans hl.symm))
    rw [if_neg h', if_neg h, select_one, val_main_v9_apply, val_main_v8_apply, val_main_v6_apply, e7,
      val_main_v5_apply, val_main_cst_apply, v2_eq, val_main_call1_v0_apply, val_main_call1_cst_apply]
    show max ((Ideal.ofBits .f32 0x3DCCCCCD#32 + sims X E W b c) - sims X E W b (label y b))
      (Ideal.ofBits .f32 0x00000000#32) = _
    rw [Ideal.ofBits_zero_f32]
    rfl

include hy in
/-- The reference's row sums are the per-sample losses. -/
theorem v17_eq (b : Fin 4096) : val_main_v17 (F := Ideal) X y E W (ix1 b) = perSample X y E W b := by
  rw [val_main_v17_apply, val_main_cst_1_apply]
  unfold perSample
  have h0 : (FloatOps.ofBits (F := Ideal) .f32 0x00000000#32 : EReal) = 0 := Ideal.ofBits_zero_f32
  rw [h0, zero_add]
  refine Finset.sum_congr rfl fun c _ => ?_
  have e : idx_main_v17 (ix1 b) c = ix2 b c := by
    funext a; match a with | ⟨0, _⟩ => rfl | ⟨1, _⟩ => rfl
  rw [e, v16_eq X y E W hy]

include hy in
/-- The reference's result is the mean of the per-sample losses. -/
theorem ref_value : val_main_v20 (F := Ideal) X y E W = fun _ => lossOf (perSample X y E W) := by
  funext j
  unfold val_main_v20 shapeCast
  rw [val_main_v19_apply, val_main_v18_apply, val_main_cst_3_apply, val_main_cst_2_apply, sum_idx1]
  unfold lossOf
  simp only [v17_eq X y E W hy]
  rfl

end Label

/-! ## The run -/

section Run
open Idealize.SL.Sem Idealize.ShloMosaic.TcCoe

/-- Every weakly fair execution of the reference terminates with its result the mean of the per-sample losses of
    its argument arrays, and the arguments unchanged, when every label word lies in [0, 20000). -/
theorem run (m : (ℓ : Loc nD τ sig) → Buf (Elt Ideal) ℓ) (ρ : Dev nD → PrngReg)
    (hy : ∀ (c : Dev nD) (b : Fin 4096), ((m ((c.tc : Thread nD τ).loc main_arg1)) (ix1 b)).toNat < 20000) :
    θ_run (defs (F := Ideal)) (onTc (τ := τ) (main (F := Ideal))) ⟨m, fun _ => 0, ρ⟩ fun r => ∀ c : Dev nD,
      r.2.mem ((c.tc : Thread nD τ).loc main_v20)
          = (fun _ => lossOf (perSample (m ((c.tc : Thread nD τ).loc main_arg0)) (m ((c.tc : Thread nD τ).loc main_arg1))
              (m ((c.tc : Thread nD τ).loc main_arg2)) (m ((c.tc : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v20_eq _ _ _ _).trans (ref_value _ _ _ _ (hy c))), (h c).2⟩)
    (Cert.ReferenceIdeal.Value.run m ρ)

end Run

end Cert.Devise.Ref
end
-- ==== Proof.PreFacts.lean ====
/-
  The precondition, decoded.  The precondition is the conjunction of four "all" tests, each printed as a
  reduction by "and" from 1 over an array of one-bit words: |x| < +∞ at every entry of the three float
  arrays, and 0 ≤ w < 20000 (signed) at every label word.  If the whole is 1 then every conjunct is 1, a
  reduction by "and" that is 1 met only 1s, and so the test holds at every index.  At the extended reals
  |x| = max x (-x) is +∞ at both infinities, so |x| < +∞ leaves the ordinary reals; and a 32-bit word
  whose signed reading lies in [0, 20000) has the same unsigned reading.
-/
import proofs.«168488_j18743237280105_2_alg».proof.Pre_finite_inputs
import proofs.«168488_j18743237280105_2_alg».proof.Proof.Gen.Pre_finite_inputs
import Idealize.ShloMosaic.Lib.ReduceAll
import Idealize.ShloMosaic.Lib.ValueIdx
import Idealize.ShloMosaic.PureOps.Ideal

noncomputable section

open Idealize.ShloMosaic Idealize.ShloMosaic.ValueIdx
open Cert.Pre_finite_inputs

namespace Cert.Devise

/-- The scalar shape has one index. -/
instance subsingleton_scalar_idx : Subsingleton S_.Idx := ⟨fun _ _ => funext fun d => d.elim0⟩

/-- The pattern the float tests compare against denotes +∞. -/
theorem inf_pattern : Ideal.ofBits .f32 0x7F800000#32 = ⊤ := by simp [Ideal.ofBits, Ideal.ieee]

/-- An extended real whose absolute value `max x (-x)` is strictly below +∞ is an ordinary real:
    at +∞ the maximum is +∞ through `x`, at -∞ through `-x`. -/
theorem real_of_abs_lt_inf (x : EReal)
    (h : Ideal.cmp .olt (max x (-x)) (Ideal.ofBits .f32 0x7F800000#32) = 1#1) :
    ∃ r : ℝ, x = (r : EReal) := by
  rw [inf_pattern] at h
  induction x using EReal.rec with
  | bot => simp [Ideal.cmp] at h
  | coe r => exact ⟨r, rfl⟩
  | top => simp [Ideal.cmp] at h

/-- A 32-bit word in [0, 20000) read signed is below 20000 read unsigned. -/
theorem toNat_lt_of_signed_range (w : BitVec 32)
    (h : IntOp.andi (IntOp.cmpi .sge w 0#32) (IntOp.cmpi .slt w 20000#32) = 1#1) :
    w.toNat < 20000 := by
  rw [IntOp.andi_eq_one, IntOp.cmpi_sge, IntOp.cmpi_slt] at h
  obtain ⟨h0, h1⟩ := h
  have z0 : (0#32 : BitVec 32).toInt = 0 := by decide
  have z1 : (20000#32 : BitVec 32).toInt = 20000 := by decide
  rw [z0] at h0
  rw [z1] at h1
  have e := BitVec.toInt_eq_toNat_cond w
  have := w.isLt
  omega

variable [Cert.Pre_finite_inputs.Facts]

/-- THE PRECONDITION DECODED: every float entry is an ordinary real and every label word is a class. -/
theorem pre_decoded (X : FVec Ideal S4096x1024 .f32) (y : IVec S4096 32)
    (E : FVec Ideal S20000x64 .f32) (W : FVec Ideal S1024x64 .f32)
    (h : Cert.Pre_finite_inputs.fn (F := Ideal) X y E W = fun _ => 1#1) :
    (∀ i, ∃ r : ℝ, X i = (r : EReal)) ∧ (∀ i, ∃ r : ℝ, E i = (r : EReal))
      ∧ (∀ i, ∃ r : ℝ, W i = (r : EReal)) ∧ ∀ b : Fin 4096, (y (ix1 b)).toNat < 20000 := by
  have e := congrFun h ix0
  dsimp only [fn, fn_part1] at e
  change IntOp.andi (IntOp.andi (IntOp.andi _ _) _) _ = 1#1 at e
  rw [IntOp.andi_eq_one, IntOp.andi_eq_one, IntOp.andi_eq_one] at e
  obtain ⟨⟨⟨eX, eE⟩, eW⟩, ey⟩ := e
  refine ⟨fun i => ?_, fun i => ?_, fun i => ?_, fun b => ?_⟩
  · exact real_of_abs_lt_inf (X i) (Host.reduce_andi_all _ _ _ _ _ eX i)
  · exact real_of_abs_lt_inf (E i) (Host.reduce_andi_all _ _ _ _ _ eE i)
  · exact real_of_abs_lt_inf (W i) (Host.reduce_andi_all _ _ _ _ _ eW i)
  · exact toNat_lt_of_signed_range (y (ix1 b)) (Host.reduce_andi_all _ _ _ _ _ ey (ix1 b))

end Cert.Devise

end
-- ==== Proof.lean ====
/-
  The kernel computes the DEVISE margin-hinge loss of the reference. Both programs read on the extended reals are
  one function of the four arrays: with proj = X W and sims = proj E^T, per sample the sum over the wrong classes
  of max (margin + sims - true similarity) 0, then the mean over the samples.
  The kernel sweeps the classes in ten tiles of 2048 columns (the class rows padded with zero rows to 20480 and
  transposed), keeps the row block's projection and the threshold (true similarity - margin) in scratch from the
  first tile on, and adds each tile's masked hinge sums max (sims - threshold) 0 into the output column. The
  frames of the word-level kernel and of its idealization are proved by hand (three cases of the body, the
  output column and the scratch carried from point to point); the value of the idealized kernel is read off
  that run by induction over the grid points; the reference's value is read off its run operation by operation.
  The two agree because, the inputs being finite, every similarity is a real number, where
  s - (t - m) = (m + s) - t, because the padded columns and the label's column are masked, and because a sum
  may be split into tiles. The labels lie in [0, 20000) by the precondition, so the gathered row is the label's
  class row on both sides. The two ledger entries are the identity of a rounding to bf16 and back at the ideal
  instance.
-/
import proofs.«168488_j18743237280105_2_alg».proof.Defs
import proofs.«168488_j18743237280105_2_alg».proof.Proof.Gen.Kernel
import proofs.«168488_j18743237280105_2_alg».proof.Proof.Gen.KernelIdeal
import proofs.«168488_j18743237280105_2_alg».proof.Proof.Gen.ReferenceIdeal
import proofs.«168488_j18743237280105_2_alg».proof.Proof.Gen.Pre_finite_inputs
import proofs.«168488_j18743237280105_2_alg».proof.Proof.Kernel.Frame
import proofs.«168488_j18743237280105_2_alg».proof.Proof.KernelIdeal.Value
import proofs.«168488_j18743237280105_2_alg».proof.Proof.RefSide
import proofs.«168488_j18743237280105_2_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two ledger entries: rounding an f32 block to bf16 and widening it back is the identity on the extended reals. -/
theorem preserves : Cert.preserves_Kernel_KernelIdeal :=
  ⟨IdealRules.truncf_extf.statement _ .f32 .bf16, IdealRules.truncf_extf.statement _ .f32 .bf16⟩

/-- Both runs end with the mean of the per-sample losses of the same four arrays. -/
theorem algebraic : Cert.algebraic_KernelIdeal_ReferenceIdeal := by
  intro m ρ m' ρ' hpre hagree
  have hdec := fun c => Cert.Devise.pre_decoded _ _ _ _ (hpre c)
  refine ⟨fun c => fun _ => Cert.Devise.lossOf (Cert.Devise.perSample (Cert.KernelIdeal.Hand.aX m c) (Cert.KernelIdeal.Hand.ay m c) (Cert.KernelIdeal.Hand.aE m c) (Cert.KernelIdeal.Hand.aW m c)),
    Cert.KernelIdeal.Hand.run_value m ρ (fun c => (hdec c).1) (fun c => (hdec c).2.1) (fun c => (hdec c).2.2.1) (fun c => (hdec c).2.2.2), ?_⟩
  have hy' : ∀ (c : Dev Cert.ReferenceIdeal.nD) (b : Fin 4096),
      ((m' ((c.tc : Thread Cert.ReferenceIdeal.nD Cert.ReferenceIdeal.τ).loc Cert.ReferenceIdeal.main_arg1)) (ix1 b)).toNat < 20000 := fun c b => by
    rw [(hagree c).2.1]; exact (hdec c).2.2.2 b
  refine (θ_run Cert.ReferenceIdeal.defs _ _).mono (fun _ h c => ⟨(h c).1.trans ?_, (h c).2⟩) (Cert.Devise.Ref.run m' ρ' hy')
  rw [(hagree c).1, (hagree c).2.1, (hagree c).2.2.1, (hagree c).2.2.2]
  all_goals rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
